-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_temperature" .f32 0x40A00000#32 ((67108864 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel

variable [Facts]

def fn {F : FTy → Type} [FloatOps F] (main_arg0 : FVec F S4096x128 .f32) (main_arg1 : FVec F S4096x128 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S4096x128 .f32 := Host.absf main_arg1
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  main_v8
-- ==== Kernel.lean ====
abbrev S4096x128 : Shape := ⟨2, ![4096, 128]⟩
abbrev S8192x128 : Shape := ⟨2, ![8192, 128]⟩
abbrev S8192x1 : Shape := ⟨2, ![8192, 1]⟩
abbrev S256x128 : Shape := ⟨2, ![256, 128]⟩
abbrev S256x1 : Shape := ⟨2, ![256, 1]⟩
abbrev S256x8192 : Shape := ⟨2, ![256, 8192]⟩
abbrev S1x8192 : Shape := ⟨2, ![1, 8192]⟩
abbrev S256 : Shape := ⟨1, ![256]⟩
abbrev S_ : Shape := ⟨0, ![]⟩

abbrev nBuf : Space → Nat
  | .hbm => 9
  | .vmem => 5
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S8192x128, .f32⟩
  | .hbm, ⟨3, _⟩ => ⟨S8192x128, .bf16⟩
  | .hbm, ⟨4, _⟩ => ⟨S8192x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S256x128, .bf16⟩
  | .local _ .vmem, ⟨1, _⟩ => ⟨S256x128, .bf16⟩
  | .local _ .vmem, ⟨2, _⟩ => ⟨S8192x128, .bf16⟩
  | .local _ .vmem, ⟨3, _⟩ => ⟨S256x1, .f32⟩
  | .local _ .vmem, ⟨4, _⟩ => ⟨S256x1, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  concatenates_S4096x128_S4096x128_S8192x128_d0 : Shape.Concatenates [S4096x128, S4096x128] S8192x128 0
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  iota_S256x1_d0_w32 : S256x1.Iotas .tc 32 [0]
  iota_S1x8192_d1_w32 : S1x8192.Iotas .tc 32 [1]
  broadcasts_S256x1_S256x8192 : S256x1.Broadcasts S256x8192
  broadcasts_S1x8192_S256x8192 : S1x8192.Broadcasts S256x8192
  reduces_S256x8192_S256 : S256x8192.Reduces [1] S256
  shapeCasts_S256_S256x1 : S256.ShapeCasts S256x1
  inb_S256x1_S256x1_0_0 : ∀ a, (![0, 0] : Fin 2 → Nat) a + S256x1.size a ≤ S256x1.size a
  h_S256x1 : 0 < S256x1.numel
  reducesTo_S8192x1_S_d0_1 : S8192x1.ReducesTo [0, 1] S_
  h_S_ : 0 < S_.numel
  dot_S256x128_S8192x128_S256x8192_1_1_0_0_n_n_wf : DotDims.WF S256x128 S8192x128 S256x8192 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x128.size a ≤ S8192x128.size a
  hwx0_0 : ∀ i : grid0.Coords, EltTy.bits .bf16 = 32 ∨ (Rect.block (s := S8192x128) S256x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x128.size a
  hwx0_1 : ∀ i : grid0.Coords, EltTy.bits .bf16 = 32 ∨ (Rect.block (s := S8192x128) S8192x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S8192x1.size a
  hwx0_2 : ∀ i : grid0.Coords, EltTy.bits .f32 = 32 ∨ (Rect.block (s := S8192x1) S256x1.size (cc0_transform_2 i) (hinb0_2 i)).WholeWords (EltTy.packing .f32)

variable [Facts₀]

def dot_S256x128_S8192x128_S256x8192_1_1_0_0_n_n : DotDims S256x128 S8192x128 S256x8192 where
  lhsContracting := [1]
  rhsContracting := [1]
  lhsNonContracting := [0]
  rhsNonContracting := [0]
  lhsBatch := []
  rhsBatch := []
  wf := dot_S256x128_S8192x128_S256x8192_1_1_0_0_n_n_wf

abbrev win0_0 : Pipeline.Window sig grid0 :=
  Pipeline.Window.ofSpec (Memref.whole main_v1) S256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x128 : Shape := ⟨2, ![4096, 128]⟩
abbrev S8192x128 : Shape := ⟨2, ![8192, 128]⟩
abbrev S128x8192 : Shape := ⟨2, ![128, 8192]⟩
abbrev S8192x8192 : Shape := ⟨2, ![8192, 8192]⟩
abbrev S_ : Shape := ⟨0, ![]⟩
abbrev S4096 : Shape := ⟨1, ![4096]⟩
abbrev S8192 : Shape := ⟨1, ![8192]⟩
abbrev S8192x1 : Shape := ⟨2, ![8192, 1]⟩
abbrev S8192x2 : Shape := ⟨2, ![8192, 2]⟩

abbrev nBuf : Space → Nat
  | .hbm => 62
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S8192x128, .f32⟩
  | .hbm, ⟨3, _⟩ => ⟨S128x8192, .f32⟩
  | .hbm, ⟨4, _⟩ => ⟨S8192x8192, .f32⟩
  | .hbm, ⟨5, _⟩ => ⟨S_, .f32⟩
  | .hbm, ⟨6, _⟩ => ⟨S8192x8192, .f32⟩
  | .hbm, ⟨7, _⟩ => ⟨S8192x8192, .f32⟩
  | .hbm, ⟨8, _⟩ => ⟨S8192x8192, .i32⟩
  | .hbm, ⟨9, _⟩ => ⟨S8192x8192, .i32⟩
  | .hbm, ⟨10, _⟩ => ⟨S_, .i32⟩
  | .hbm, ⟨11, _⟩ => ⟨S8192x8192, .i32⟩
  | .hbm, ⟨12, _⟩ => ⟨S8192x8192, .i32⟩
  | .hbm, ⟨13, _⟩ => ⟨S8192x8192, .i1⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S4096, .i32⟩
  | .hbm, ⟨18, _⟩ => ⟨S_, .i32⟩
  | .hbm, ⟨19, _⟩ => ⟨S4096, .i32⟩
  | .hbm, ⟨20, _⟩ => ⟨S4096, .i32⟩
  | .hbm, ⟨21, _⟩ => ⟨S4096, .i32⟩
  | .hbm, ⟨22, _⟩ => ⟨S8192, .i32⟩
  | .hbm, ⟨23, _⟩ => ⟨S_, .f32⟩
  | .hbm, ⟨24, _⟩ => ⟨S8192, .f32⟩
  | .hbm, ⟨25, _⟩ => ⟨S_, .f32⟩
  | .hbm, ⟨26, _⟩ => ⟨S8192, .f32⟩
  | .hbm, ⟨27, _⟩ => ⟨S8192, .f32⟩
  | .hbm, ⟨28, _⟩ => ⟨S8192x1, .f32⟩
  | .hbm, ⟨29, _⟩ => ⟨S8192x8192, .f32⟩
  | .hbm, ⟨30, _⟩ => ⟨S8192x8192, .f32⟩
  | .hbm, ⟨31, _⟩ => ⟨S8192x8192, .f32⟩
  | .hbm, ⟨32, _⟩ => ⟨S_, .f32⟩
  | .hbm, ⟨33, _⟩ => ⟨S8192, .f32⟩
  | .hbm, ⟨34, _⟩ => ⟨S8192x1, .f32⟩
  | .hbm, ⟨35, _⟩ => ⟨S8192x1, .f32⟩
  | .hbm, ⟨36, _⟩ => ⟨S8192x8192, .f32⟩
  | .hbm, ⟨37, _⟩ => ⟨S8192x8192, .f32⟩
  | .hbm, ⟨38, _⟩ => ⟨S8192, .i32⟩
  | .hbm, ⟨39, _⟩ => ⟨S_, .i32⟩
  | .hbm, ⟨40, _⟩ => ⟨S8192, .i32⟩
  | .hbm, ⟨41, _⟩ => ⟨S8192, .i1⟩
  | .hbm, ⟨42, _⟩ => ⟨S_, .i32⟩
  | .hbm, ⟨43, _⟩ => ⟨S8192, .i32⟩
  | .hbm, ⟨44, _⟩ => ⟨S8192, .i32⟩
  | .hbm, ⟨45, _⟩ => ⟨S8192, .i32⟩
  | .hbm, ⟨46, _⟩ => ⟨S_, .i32⟩
  | .hbm, ⟨47, _⟩ => ⟨S8192, .i32⟩
  | .hbm, ⟨48, _⟩ => ⟨S8192, .i1⟩
  | .hbm, ⟨49, _⟩ => ⟨S_, .i32⟩
  | .hbm, ⟨50, _⟩ => ⟨S8192, .i32⟩
  | .hbm, ⟨51, _⟩ => ⟨S8192, .i32⟩
  | .hbm, ⟨52, _⟩ => ⟨S8192, .i32⟩
  | .hbm, ⟨53, _⟩ => ⟨S8192x1, .i32⟩
  | .hbm, ⟨54, _⟩ => ⟨S8192x1, .i32⟩
  | .hbm, ⟨55, _⟩ => ⟨S8192x2, .i32⟩
  | .hbm, ⟨56, _⟩ => ⟨S8192, .f32⟩
  | .hbm, ⟨57, _⟩ => ⟨S8192, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_call0_v0 : Ref sig .tc := ⟨.hbm, 15, rfl⟩
abbrev main_v10 : Ref sig .tc := ⟨.hbm, 16, rfl⟩
abbrev main_v11 : Ref sig .tc := ⟨.hbm, 17, rfl⟩
abbrev main_c_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call1_cst : Ref sig .tc := ⟨.hbm, 23, rfl⟩
abbrev main_call1_v0 : Ref sig .tc := ⟨.hbm, 24, rfl⟩
abbrev main_call1_cst_0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_v5 : Ref sig .tc := ⟨.hbm, 30, rfl⟩
abbrev main_call1_v6 : Ref sig .tc := ⟨.hbm, 31, rfl⟩
abbrev main_call1_cst_1 : Ref sig .tc := ⟨.hbm, 32, rfl⟩
abbrev main_call1_v7 : Ref sig .tc := ⟨.hbm, 33, rfl⟩
abbrev main_call1_v8 : Ref sig .tc := ⟨.hbm, 34, rfl⟩
abbrev main_call1_v9 : Ref sig .tc := ⟨.hbm, 35, rfl⟩
abbrev main_call1_v10 : Ref sig .tc := ⟨.hbm, 36, rfl⟩
abbrev main_v16 : Ref sig .tc := ⟨.hbm, 37, rfl⟩
abbrev main_v17 : Ref sig .tc := ⟨.hbm, 38, rfl⟩
abbrev main_c_2 : Ref sig .tc := ⟨.hbm, 39, rfl⟩
abbrev main_v18 : Ref sig .tc := ⟨.hbm, 40, rfl⟩
abbrev main_v19 : Ref sig .tc := ⟨.hbm, 41, rfl⟩
abbrev main_c_3 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_c_4 : Ref sig .tc := ⟨.hbm, 46, rfl⟩
abbrev main_v23 : Ref sig .tc := ⟨.hbm, 47, rfl⟩
abbrev main_v24 : Ref sig .tc := ⟨.hbm, 48, rfl⟩
abbrev main_c_5 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_6 : Ref sig .tc := ⟨.hbm, 58, rfl⟩
abbrev main_v33 : Ref sig .tc := ⟨.hbm, 59, rfl⟩
abbrev main_cst_7 : Ref sig .tc := ⟨.hbm, 60, rfl⟩
abbrev main_v34 : Ref sig .tc := ⟨.hbm, 61, rfl⟩

abbrev nD : Nat := 1
abbrev τ : Topo := Topo.v7x

variable {F : FTy → Type} [FloatOps F]

class Facts₀ : Prop where
  concatenates_S4096x128_S4096x128_S8192x128_d0 : Shape.Concatenates [S4096x128, S4096x128] S8192x128 0
  transposes_S8192x128_S128x8192_1_0 : S8192x128.Transposes [1, 0] S128x8192
  bcast_S_S8192x8192 : S_.BroadcastsInDim S8192x8192 (![] : Fin 0 → Fin S8192x8192.rank)
  bcast_S_S4096 : S_.BroadcastsInDim S4096 (![] : Fin 0 → Fin S4096.rank)
  concatenates_S4096_S4096_S8192_d0 : Shape.Concatenates [S4096, S4096] S8192 0
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  concatenates_S8192x1_S8192x1_S8192x2_d1 : Shape.Concatenates [S8192x1, S8192x1] S8192x2 1
  reducesTo_S8192_S_d0 : S8192.ReducesTo [0] S_
  dot_S8192x128_S128x8192_S8192x8192_1_0_0_1_n_n_wf : DotDims.WF S8192x128 S128x8192 S8192x8192 [1] [0] [0] [1] [] []
  gather_S8192x8192_S8192x2_S8192_n_01_n_n_01_1_11_wf : GatherDims.WF S8192x8192 S8192x2 S8192 [] [0, 1] [] [0, 1] [] 1 ![1, 1]

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf
def gather_S8192x8192_S8192x2_S8192_n_01_n_n_01_1_11 : GatherDims S8192x8192 S8192x2 S8192 where
  offsetDims := []
  collapsedSliceDims := [0, 1]
  operandBatchingDims := []
  startIndicesBatchingDims := []
  startIndexMap := [0, 1]
  indexVectorDim := 1
  sliceSizes := ![1, 1]
  wf := gather_S8192x8192_S8192x2_S8192_n_01_n_n_01_1_11_wf

class Facts : Prop extends Facts₀ where

variable [Facts]
-- ==== Proof.KernelBody.lean ====
/-
  One grid point of the kernel, as a statement about memory.

  The kernel visits 32 points. At point `t` it is handed three staging buffers: a block of 256 rows of the
  stacked array (rows `256 t … 256 t + 255`), the whole stacked array (both windows read ONE array), and a
  column of 256 results to fill. Its body loads the two inputs whole, computes one column from them (the
  payload `k0_pay1`), and stores the column whole. Here: what each buffer holds after the body as a function of
  what the inputs held; that the body, run on buffers holding those inputs, ends with exactly that; and the same
  packaged as the proof data of the launch — the arrays as the region finds them, each input buffer at its
  block of them, the output buffer at the payload of the two blocks. The two input windows each hold half of
  the share of the array they have in common.
-/
import proofs.«101757_j26104811225348_1_alg».proof.Proof.Gen.Kernel.Launch
import proofs.«101757_j26104811225348_1_alg».proof.Proof.Gen.Kernel.Skeleton
import proofs.«101757_j26104811225348_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row-block window's buffer holds its block at every point, for any proof data on these arrays whose body
    leaves the block in place. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The whole-array window's buffer holds the array at every point: it is fetched once and never moves. -/
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The three whole-buffer rectangles the body loads and stores through. -/
abbrev rIn0 : Rect S256x128 := Rect.unit (s := S256x128) ![0, 0] S256x128.size inb_S256x128_S256x128_0_0
abbrev rIn1 : Rect S8192x128 := Rect.unit (s := S8192x128) ![0, 0] S8192x128.size inb_S8192x128_S8192x128_0_0
abbrev rOut : Rect S256x1 := Rect.unit (s := S256x1) ![0, 0] S256x1.size inb_S256x1_S256x1_0_0

/-- The result column's buffer after the body at grid coordinates `i`, from the two input buffers: its one store. -/
def outCol (i : grid0.Coords) (x0 : Vec F S256x128 .bf16) (x1 : Vec F S8192x128 .bf16) : Vec F S256x1 .f32 :=
  View.canon [⟨rOut, k0_pay1 i (View.ld x0 rIn0) (View.ld x1 rIn1)⟩]

/-- The one store covers the buffer. -/
theorem cover_out (p0 : Vec F S256x1 .f32) (y : S256x1.Idx) :
    ∃ pc ∈ ([⟨rOut, p0⟩] : List (View.Piece (Elt F) S256x1 .f32)), y ∈ pc.1.set :=
  View.cover_of_tiled [⟨rOut, p0⟩] S256x1.size (by rfl) y

set_option maxHeartbeats 1000000 in
/-- The body on whole staging memrefs, the inputs' at contents `x0`, `x1` and the output's at anything, runs to the
    continuation holding the inputs' as they were and the output's at `outCol` of them. -/
theorem sound_kernel (c : Dev nD) (E : Set ℕ) (i : grid0.Coords) (arg1 : Memref sig .tc .vmem S256x128 .bf16) (harg1 : arg1.IsWhole)
    (arg2 : Memref sig .tc .vmem S8192x128 .bf16) (harg2 : arg2.IsWhole) (arg3 : Memref sig .tc .vmem S256x1 .f32) (harg3 : arg3.IsWhole)
    (x0 : Vec F S256x128 .bf16) (x1 : Vec F S8192x128 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (outCol i x0 x1)) -∗ K ⟨⟩))
      ⊢ wp frame (wpE (defs₀ (F := F)) Variants.none c none) E (cc0__ntxent_kernel i arg1 harg1 arg2 harg2 arg3 harg3) K := by
  simp only [cc0__ntxent_kernel_eq_skeleton]; unfold cc0__ntxent_kernel_skel
  simp only [k0_part1_eq_skeleton]
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

/-- The proof data of the launch on core `c`: the arrays as the region finds them; after the body at point `t`
    each input's buffer at its block and the output's at `outCol` of the two blocks; the invariant the scoped rest
    and the generator register, untouched; nothing owed; the two windows on the common array hold half its share
    each. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => outCol (grid0.coords t) (iblk V c 0 t) (iblk V c 1 t)
  Φ _ := Pipeline.ΦA spec0 c
  q w := match w with
    | ⟨0, _⟩ => fullShare.left
    | ⟨1, _⟩ => fullShare.right
    | ⟨2, _⟩ => fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) :
    (dat V c).after 2 t = outCol (grid0.coords t) (iblk V c 0 t) (iblk V c 1 t) := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

/-- The body at any point: the inputs' memrefs hold their blocks, so `sound_kernel` applies; the invariant and the
    core's dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The launch's body obligation, at every point. -/
theorem body_obligation (c : Dev nD) : BodyObligation (dat (F := F) V c) (defs₀ (F := F)) Variants.none () Set.univ := fun t => by
  rw [bigSep_W0, bigSep_W0]
  exact sound_body V c t

end Region

end Cert.Kernel.Body

end
-- ==== Proof.KernelRun.lean ====
/-
  The whole program as a statement about memory.

  The program is two host operations (stack the two argument arrays; change their format), the kernel launched
  over its 32 grid points, and four host operations (sum the 8192 results from zero; divide by 8192). Between two
  of these pieces the core holds every unscoped buffer at known contents: the launch memory, then what each host
  stretch computes, then — after the launch — the results' array at what the write-backs leave and every other
  buffer as it was. The launch's two input windows read ONE array: entering the launch its buffer's full share is
  split in two halves, one per window, and put together again when the launch returns. Every weakly fair execution
  therefore terminates, and its final memory is the last of these valuations.
-/
import proofs.«101757_j26104811225348_1_alg».proof.Proof.KernelBody

set_option maxRecDepth 16384

noncomputable section

namespace Cert.Kernel.Whole

open Cert.Kernel Cert.Kernel.Gen Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the pieces -/

/-- Core `c`'s buffers at launch. -/
abbrev W0 : Dev nD → Valuation τ sig (Elt F) := fun c b => (s₀ m ρ).mem ((c : Dev nD), b)
/-- After the two host operations before the launch. -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- When the launch returns: the results' array at what the write-backs leave, every other buffer as entered. -/
def W2 (c : Dev nD) : Valuation τ sig (Elt F) :=
  Function.update (W1 m ρ c) (Proc.devRef .tc main_v2) ((dat (V1 m ρ) c).arrAt 2 cfg0.N)
abbrev V2 : (c : Dev nD) → (b : Ref sig .tc) → Buf (Elt F) ((c : Thread nD τ).loc b) := fun c b => W2 m ρ c b
/-- After the four host operations after the launch. -/
abbrev W3 : Dev nD → Valuation τ sig (Elt F) := fun c => StableHlo.after hostOps1 (W2 m ρ c)

theorem W2_out (c : Dev nD) : W2 m ρ c (Proc.devRef .tc main_v2) = (dat (V1 m ρ) c).arrAt 2 cfg0.N := by
  unfold W2; exact Function.update_self ..
theorem W2_of_ne (c : Dev nD) (b : Ref sig .tc) (hb : b ≠ main_v2) :
    W2 m ρ c (Proc.devRef .tc b) = W1 m ρ c (Proc.devRef .tc b) := by
  unfold W2; exact Function.update_of_ne (StableHlo.devRef_ne_of_ne hb) ..

/-! ## The launch's arrays in and out of the unscoped buffers -/

section Arrays
variable (V : (c : Dev nD) → (b : Ref sig .tc) → Buf (Elt F) ((c : Thread nD τ).loc b))

/-- The launch's arrays at contents `G`, window by window: the common array at half its share twice, the results'
    array at the full share. -/
theorem arrays_eq (c : Dev nD) (G : (w : Fin cfg0.W) → Buf (Elt F) ((cfg0.win w).arr.view.loc (c : Thread nD τ))) :
    ((dat V c).arrays G : sProp 𝕄)
      = iprop((((c : Thread nD τ).loc main_v1) ↦{fullShare.left} G 0) ∗ (((c : Thread nD τ).loc main_v1) ↦{fullShare.right} G 1)
          ∗ (((c : Thread nD τ).loc main_v2) ↦{fullShare} G 2)) := by
  unfold Dat.arrays
  rw [bigSep_W0, (arr_whole0 0).set_eq_univ, (arr_whole0 2).set_eq_univ]
  rfl

/-- The distinct buffers behind the launch's arrays. -/
theorem arrBufs_eq (c : Dev nD) (A : (b : Ref sig .tc) → Buf (Elt F) ((c : Thread nD τ).loc b)) :
    (Pipeline.arrBufs spec0 c A : sProp 𝕄)
      = iprop((((c : Thread nD τ).loc main_v1) ↦{fullShare} A main_v1) ∗ (((c : Thread nD τ).loc main_v2) ↦{fullShare} A main_v2)) := by
  unfold Pipeline.arrBufs
  exact bigSep_eq_bigSepL_of_eq [main_v1, main_v2] (by decide) (by decide) _

end Arrays

/-- Entering the launch: the core's unscoped buffers are the launch's arrays at the contents the region finds — the
    common array's full share split in two — and the rest. -/
theorem entry_arrays (c : Dev nD) :
    (unscopedBufs c (V1 m ρ c) : sProp 𝕄)
      ⊢ iprop((dat (V1 m ρ) c).arrays ((dat (V1 m ρ) c).arrAt · 0) ∗ Pipeline.unscopedRest spec0 c (V1 m ρ c)) := by
  rw [Pipeline.unscopedBufs_split₀ cfgs 0 winFacts₀0.arr_unscoped c (V1 m ρ c), arrays_eq, arrBufs_eq]
  iintro ⟨⟨H1, H2⟩, Hr⟩
  ihave Hs := (pointsTo_share (PosShare.mem_left_op_right fullShare)).1 $$ H1
  icases Hs with ⟨Hl, Hrr⟩
  isplitr [Hr]
  · isplitl [Hl]; · iexact Hl
    isplitl [Hrr]; · iexact Hrr
    iexact H2
  · iexact Hr

/-- Off the results' array the valuation after the launch is the one before it. -/
theorem rest_eq (c : Dev nD) :
    (Pipeline.unscopedRest spec0 c (V2 m ρ c) : sProp 𝕄) = Pipeline.unscopedRest spec0 c (V1 m ρ c) := by
  unfold Pipeline.unscopedRest
  refine bigSep_congr fun b hb => ?_
  have hb' : b ≠ main_v2 := fun e => (Finset.mem_sdiff.mp hb).2 (Finset.mem_image.mpr ⟨2, Finset.mem_univ _, e.symm⟩)
  rw [show V2 m ρ c b = V1 m ρ c b from W2_of_ne m ρ c b hb']

/-- Leaving the launch: the arrays at what the launch leaves — the two halves of the common array, unchanged, put
    together; the results' array at its write-backs — and the rest are the core's unscoped buffers at the valuation
    after the launch. -/
theorem exit_arrays (c : Dev nD) :
    iprop((dat (V1 m ρ) c).arrays ((dat (V1 m ρ) c).arrAt · cfg0.N) ∗ Pipeline.unscopedRest spec0 c (V1 m ρ c))
      ⊢ (unscopedBufs c (V2 m ρ c) : sProp 𝕄) := by
  rw [Pipeline.unscopedBufs_split₀ cfgs 0 winFacts₀0.arr_unscoped c (V2 m ρ c), arrays_eq, arrBufs_eq, rest_eq,
    (dat (V1 m ρ) c).arrAt_in 0 rfl, (dat (V1 m ρ) c).arrAt_in 1 rfl,
    show V2 m ρ c main_v1 = V1 m ρ c main_v1 from W2_of_ne m ρ c main_v1 (by decide),
    show V2 m ρ c main_v2 = (dat (V1 m ρ) c).arrAt 2 cfg0.N from W2_out m ρ c]
  iintro ⟨⟨Hl, Hr, H2⟩, Hrest⟩
  isplitr [Hrest]
  · isplitl [Hl Hr]
    · iapply (pointsTo_share (PosShare.mem_left_op_right fullShare)).2
      isplitl [Hl]; · iexact Hl
      iexact Hr
    · iexact H2
  · iexact Hrest

/-! ## The proof data family and the thread state -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat (V1 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every piece: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last valuation, the generator register at
    some state. -/
abbrev Tₙ (c : Dev nD) : sProp 𝕄 := iprop(StableHlo.held (c : Thread nD τ) (Pipeline.ucRefs τ sig) (W3 m ρ c) ∗ ∃ r, prngReg c r)

/-! ## The launch as a segment -/

set_option backward.isDefEq.respectTransparency.types false in
/-- The launch over the thread state: entered from every unscoped buffer at `W1`, left at `W2`. -/
def reg : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := entry_arrays m ρ c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit_arrays m ρ c
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub hostOps0_fresh (W0 m ρ)),
    .region (reg m ρ),
    .host (hseg hostOps1 hostOps1_sub hostOps1_fresh (W2 m ρ)) ]
theorem main_run (c : Dev nD) : main (F := F) c = Pipeline.Seg.run (segs m ρ) := (main_chain c).trans (by chain_rfl)

set_option backward.isDefEq.respectTransparency.types false in
/-- From any memory with zero counters, every weakly fair execution of the program terminates, nothing faulting, and
    its final memory holds every unscoped buffer at the last valuation `W3`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show iprop(StableHlo.held (c : Thread nD τ) (Pipeline.ucRefs τ sig) (W3 m ρ c) ∗ R c) ⊢ _
      iintro ⟨Hh, Hp, HO⟩
      isplitr [HO]
      · isplitl [Hh]; · iexact Hh
        iexact Hp
      · iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-! ## The arguments end as launched -/

theorem hostOps0_keeps (c : Dev nD) (b : Ref sig .tc) (hb : b ≠ main_v0 ∧ b ≠ main_v1) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes, Finset.mem_singleton]
    exact ⟨StableHlo.devRef_ne_of_ne hb.1, StableHlo.devRef_ne_of_ne hb.2⟩))

theorem hostOps1_keeps (c : Dev nD) (b : Ref sig .tc) (hb : b ≠ main_cst ∧ b ≠ main_v3 ∧ b ≠ main_cst_0 ∧ b ≠ main_v4) :
    W3 m ρ c (Proc.devRef .tc b) = W2 m ρ c (Proc.devRef .tc b) :=
  StableHlo.after_of_forall_not_mem (b := Proc.devRef .tc b) _ _ (List.forall_iff_forall_mem.mp (by
    simp only [hostOps1, List.Forall, StableHlo.nullary_writes, StableHlo.unary_writes, StableHlo.binary_writes, Finset.mem_singleton]
    exact ⟨StableHlo.devRef_ne_of_ne hb.1, StableHlo.devRef_ne_of_ne hb.2.1, StableHlo.devRef_ne_of_ne hb.2.2.1, StableHlo.devRef_ne_of_ne hb.2.2.2⟩))

/-- No piece of the program writes the first argument. -/
theorem W3_main_arg0 (c : Dev nD) : W3 m ρ c (Proc.devRef .tc main_arg0) = m ((c : Thread nD τ).loc main_arg0) :=
  (hostOps1_keeps m ρ c main_arg0 (by decide)).trans <| (W2_of_ne m ρ c main_arg0 (by decide)).trans <|
    (hostOps0_keeps m ρ c main_arg0 (by decide)).trans rfl
/-- Nor the second. -/
theorem W3_main_arg1 (c : Dev nD) : W3 m ρ c (Proc.devRef .tc main_arg1) = m ((c : Thread nD τ).loc main_arg1) :=
  (hostOps1_keeps m ρ c main_arg1 (by decide)).trans <| (W2_of_ne m ρ c main_arg1 (by decide)).trans <|
    (hostOps0_keeps m ρ c main_arg1 (by decide)).trans rfl

/-- The program runs to the end, faults nowhere, and leaves its two argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W3_main_arg0 m ρ c),
     (h c _ (mem_uc main_arg1 (by decide))).trans (W3_main_arg1 m ρ c)⟩) (run m ρ)

end Cert.Kernel.Whole

end
-- ==== Proof.KernelIdealBody.lean ====
/-
  One grid point of the kernel, as a statement about memory.

  The kernel visits 32 points. At point `t` it is handed three staging buffers: a block of 256 rows of the
  stacked array (rows `256 t … 256 t + 255`), the whole stacked array (both windows read ONE array), and a
  column of 256 results to fill. Its body loads the two inputs whole, computes one column from them (the
  payload `k0_pay1`), and stores the column whole. Here: what each buffer holds after the body as a function of
  what the inputs held; that the body, run on buffers holding those inputs, ends with exactly that; and the same
  packaged as the proof data of the launch — the arrays as the region finds them, each input buffer at its
  block of them, the output buffer at the payload of the two blocks. The two input windows each hold half of
  the share of the array they have in common.
-/
import proofs.«101757_j26104811225348_1_alg».proof.Proof.Gen.KernelIdeal.Launch
import proofs.«101757_j26104811225348_1_alg».proof.Proof.Gen.KernelIdeal.Skeleton
import proofs.«101757_j26104811225348_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row-block window's buffer holds its block at every point, for any proof data on these arrays whose body
    leaves the block in place. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The whole-array window's buffer holds the array at every point: it is fetched once and never moves. -/
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The three whole-buffer rectangles the body loads and stores through. -/
abbrev rIn0 : Rect S256x128 := Rect.unit (s := S256x128) ![0, 0] S256x128.size inb_S256x128_S256x128_0_0
abbrev rIn1 : Rect S8192x128 := Rect.unit (s := S8192x128) ![0, 0] S8192x128.size inb_S8192x128_S8192x128_0_0
abbrev rOut : Rect S256x1 := Rect.unit (s := S256x1) ![0, 0] S256x1.size inb_S256x1_S256x1_0_0

/-- The result column's buffer after the body at grid coordinates `i`, from the two input buffers: its one store. -/
def outCol (i : grid0.Coords) (x0 : Vec F S256x128 .bf16) (x1 : Vec F S8192x128 .bf16) : Vec F S256x1 .f32 :=
  View.canon [⟨rOut, k0_pay1 i (View.ld x0 rIn0) (View.ld x1 rIn1)⟩]

/-- The one store covers the buffer. -/
theorem cover_out (p0 : Vec F S256x1 .f32) (y : S256x1.Idx) :
    ∃ pc ∈ ([⟨rOut, p0⟩] : List (View.Piece (Elt F) S256x1 .f32)), y ∈ pc.1.set :=
  View.cover_of_tiled [⟨rOut, p0⟩] S256x1.size (by rfl) y

set_option maxHeartbeats 1000000 in
/-- The body on whole staging memrefs, the inputs' at contents `x0`, `x1` and the output's at anything, runs to the
    continuation holding the inputs' as they were and the output's at `outCol` of them. -/
theorem sound_kernel (c : Dev nD) (E : Set ℕ) (i : grid0.Coords) (arg1 : Memref sig .tc .vmem S256x128 .bf16) (harg1 : arg1.IsWhole)
    (arg2 : Memref sig .tc .vmem S8192x128 .bf16) (harg2 : arg2.IsWhole) (arg3 : Memref sig .tc .vmem S256x1 .f32) (harg3 : arg3.IsWhole)
    (x0 : Vec F S256x128 .bf16) (x1 : Vec F S8192x128 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (outCol i x0 x1)) -∗ K ⟨⟩))
      ⊢ wp frame (wpE (defs₀ (F := F)) Variants.none c none) E (cc0__ntxent_kernel i arg1 harg1 arg2 harg2 arg3 harg3) K := by
  simp only [cc0__ntxent_kernel_eq_skeleton]; unfold cc0__ntxent_kernel_skel
  simp only [k0_part1_eq_skeleton]
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

/-- The proof data of the launch on core `c`: the arrays as the region finds them; after the body at point `t`
    each input's buffer at its block and the output's at `outCol` of the two blocks; the invariant the scoped rest
    and the generator register, untouched; nothing owed; the two windows on the common array hold half its share
    each. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => outCol (grid0.coords t) (iblk V c 0 t) (iblk V c 1 t)
  Φ _ := Pipeline.ΦA spec0 c
  q w := match w with
    | ⟨0, _⟩ => fullShare.left
    | ⟨1, _⟩ => fullShare.right
    | ⟨2, _⟩ => fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) :
    (dat V c).after 2 t = outCol (grid0.coords t) (iblk V c 0 t) (iblk V c 1 t) := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

/-- The body at any point: the inputs' memrefs hold their blocks, so `sound_kernel` applies; the invariant and the
    core's dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The launch's body obligation, at every point. -/
theorem body_obligation (c : Dev nD) : BodyObligation (dat (F := F) V c) (defs₀ (F := F)) Variants.none () Set.univ := fun t => by
  rw [bigSep_W0, bigSep_W0]
  exact sound_body V c t

end Region

end Cert.KernelIdeal.Body

end
-- ==== Proof.KernelIdealRun.lean ====
/-
  The whole program as a statement about memory.

  The program is two host operations (stack the two argument arrays; change their format), the kernel launched
  over its 32 grid points, and four host operations (sum the 8192 results from zero; divide by 8192). Between two
  of these pieces the core holds every unscoped buffer at known contents: the launch memory, then what each host
  stretch computes, then — after the launch — the results' array at what the write-backs leave and every other
  buffer as it was. The launch's two input windows read ONE array: entering the launch its buffer's full share is
  split in two halves, one per window, and put together again when the launch returns. Every weakly fair execution
  therefore terminates, and its final memory is the last of these valuations.
-/
import proofs.«101757_j26104811225348_1_alg».proof.Proof.KernelIdealBody

set_option maxRecDepth 16384

noncomputable section

namespace Cert.KernelIdeal.Whole

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffers' contents between the pieces -/

/-- Core `c`'s buffers at launch. -/
abbrev W0 : Dev nD → Valuation τ sig (Elt F) := fun c b => (s₀ m ρ).mem ((c : Dev nD), b)
/-- After the two host operations before the launch. -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- When the launch returns: the results' array at what the write-backs leave, every other buffer as entered. -/
def W2 (c : Dev nD) : Valuation τ sig (Elt F) :=
  Function.update (W1 m ρ c) (Proc.devRef .tc main_v2) ((dat (V1 m ρ) c).arrAt 2 cfg0.N)
abbrev V2 : (c : Dev nD) → (b : Ref sig .tc) → Buf (Elt F) ((c : Thread nD τ).loc b) := fun c b => W2 m ρ c b
/-- After the four host operations after the launch. -/
abbrev W3 : Dev nD → Valuation τ sig (Elt F) := fun c => StableHlo.after hostOps1 (W2 m ρ c)

theorem W2_out (c : Dev nD) : W2 m ρ c (Proc.devRef .tc main_v2) = (dat (V1 m ρ) c).arrAt 2 cfg0.N := by
  unfold W2; exact Function.update_self ..
theorem W2_of_ne (c : Dev nD) (b : Ref sig .tc) (hb : b ≠ main_v2) :
    W2 m ρ c (Proc.devRef .tc b) = W1 m ρ c (Proc.devRef .tc b) := by
  unfold W2; exact Function.update_of_ne (StableHlo.devRef_ne_of_ne hb) ..

/-! ## The launch's arrays in and out of the unscoped buffers -/

section Arrays
variable (V : (c : Dev nD) → (b : Ref sig .tc) → Buf (Elt F) ((c : Thread nD τ).loc b))

/-- The launch's arrays at contents `G`, window by window: the common array at half its share twice, the results'
    array at the full share. -/
theorem arrays_eq (c : Dev nD) (G : (w : Fin cfg0.W) → Buf (Elt F) ((cfg0.win w).arr.view.loc (c : Thread nD τ))) :
    ((dat V c).arrays G : sProp 𝕄)
      = iprop((((c : Thread nD τ).loc main_v1) ↦{fullShare.left} G 0) ∗ (((c : Thread nD τ).loc main_v1) ↦{fullShare.right} G 1)
          ∗ (((c : Thread nD τ).loc main_v2) ↦{fullShare} G 2)) := by
  unfold Dat.arrays
  rw [bigSep_W0, (arr_whole0 0).set_eq_univ, (arr_whole0 2).set_eq_univ]
  rfl

/-- The distinct buffers behind the launch's arrays. -/
theorem arrBufs_eq (c : Dev nD) (A : (b : Ref sig .tc) → Buf (Elt F) ((c : Thread nD τ).loc b)) :
    (Pipeline.arrBufs spec0 c A : sProp 𝕄)
      = iprop((((c : Thread nD τ).loc main_v1) ↦{fullShare} A main_v1) ∗ (((c : Thread nD τ).loc main_v2) ↦{fullShare} A main_v2)) := by
  unfold Pipeline.arrBufs
  exact bigSep_eq_bigSepL_of_eq [main_v1, main_v2] (by decide) (by decide) _

end Arrays

/-- Entering the launch: the core's unscoped buffers are the launch's arrays at the contents the region finds — the
    common array's full share split in two — and the rest. -/
theorem entry_arrays (c : Dev nD) :
    (unscopedBufs c (V1 m ρ c) : sProp 𝕄)
      ⊢ iprop((dat (V1 m ρ) c).arrays ((dat (V1 m ρ) c).arrAt · 0) ∗ Pipeline.unscopedRest spec0 c (V1 m ρ c)) := by
  rw [Pipeline.unscopedBufs_split₀ cfgs 0 winFacts₀0.arr_unscoped c (V1 m ρ c), arrays_eq, arrBufs_eq]
  iintro ⟨⟨H1, H2⟩, Hr⟩
  ihave Hs := (pointsTo_share (PosShare.mem_left_op_right fullShare)).1 $$ H1
  icases Hs with ⟨Hl, Hrr⟩
  isplitr [Hr]
  · isplitl [Hl]; · iexact Hl
    isplitl [Hrr]; · iexact Hrr
    iexact H2
  · iexact Hr

/-- Off the results' array the valuation after the launch is the one before it. -/
theorem rest_eq (c : Dev nD) :
    (Pipeline.unscopedRest spec0 c (V2 m ρ c) : sProp 𝕄) = Pipeline.unscopedRest spec0 c (V1 m ρ c) := by
  unfold Pipeline.unscopedRest
  refine bigSep_congr fun b hb => ?_
  have hb' : b ≠ main_v2 := fun e => (Finset.mem_sdiff.mp hb).2 (Finset.mem_image.mpr ⟨2, Finset.mem_univ _, e.symm⟩)
  rw [show V2 m ρ c b = V1 m ρ c b from W2_of_ne m ρ c b hb']

/-- Leaving the launch: the arrays at what the launch leaves — the two halves of the common array, unchanged, put
    together; the results' array at its write-backs — and the rest are the core's unscoped buffers at the valuation
    after the launch. -/
theorem exit_arrays (c : Dev nD) :
    iprop((dat (V1 m ρ) c).arrays ((dat (V1 m ρ) c).arrAt · cfg0.N) ∗ Pipeline.unscopedRest spec0 c (V1 m ρ c))
      ⊢ (unscopedBufs c (V2 m ρ c) : sProp 𝕄) := by
  rw [Pipeline.unscopedBufs_split₀ cfgs 0 winFacts₀0.arr_unscoped c (V2 m ρ c), arrays_eq, arrBufs_eq, rest_eq,
    (dat (V1 m ρ) c).arrAt_in 0 rfl, (dat (V1 m ρ) c).arrAt_in 1 rfl,
    show V2 m ρ c main_v1 = V1 m ρ c main_v1 from W2_of_ne m ρ c main_v1 (by decide),
    show V2 m ρ c main_v2 = (dat (V1 m ρ) c).arrAt 2 cfg0.N from W2_out m ρ c]
  iintro ⟨⟨Hl, Hr, H2⟩, Hrest⟩
  isplitr [Hrest]
  · isplitl [Hl Hr]
    · iapply (pointsTo_share (PosShare.mem_left_op_right fullShare)).2
      isplitl [Hl]; · iexact Hl
      iexact Hr
    · iexact H2
  · iexact Hrest

/-! ## The proof data family and the thread state -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat (V1 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every piece: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last valuation, the generator register at
    some state. -/
abbrev Tₙ (c : Dev nD) : sProp 𝕄 := iprop(StableHlo.held (c : Thread nD τ) (Pipeline.ucRefs τ sig) (W3 m ρ c) ∗ ∃ r, prngReg c r)

/-! ## The launch as a segment -/

set_option backward.isDefEq.respectTransparency.types false in
/-- The launch over the thread state: entered from every unscoped buffer at `W1`, left at `W2`. -/
def reg : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := entry_arrays m ρ c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit_arrays m ρ c
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub hostOps0_fresh (W0 m ρ)),
    .region (reg m ρ),
    .host (hseg hostOps1 hostOps1_sub hostOps1_fresh (W2 m ρ)) ]
theorem main_run (c : Dev nD) : main (F := F) c = Pipeline.Seg.run (segs m ρ) := (main_chain c).trans (by chain_rfl)

set_option backward.isDefEq.respectTransparency.types false in
/-- From any memory with zero counters, every weakly fair execution of the program terminates, nothing faulting, and
    its final memory holds every unscoped buffer at the last valuation `W3`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show iprop(StableHlo.held (c : Thread nD τ) (Pipeline.ucRefs τ sig) (W3 m ρ c) ∗ R c) ⊢ _
      iintro ⟨Hh, Hp, HO⟩
      isplitr [HO]
      · isplitl [Hh]; · iexact Hh
        iexact Hp
      · iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-! ## The arguments end as launched -/

theorem hostOps0_keeps (c : Dev nD) (b : Ref sig .tc) (hb : b ≠ main_v0 ∧ b ≠ main_v1) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes, Finset.mem_singleton]
    exact ⟨StableHlo.devRef_ne_of_ne hb.1, StableHlo.devRef_ne_of_ne hb.2⟩))

theorem hostOps1_keeps (c : Dev nD) (b : Ref sig .tc) (hb : b ≠ main_cst ∧ b ≠ main_v3 ∧ b ≠ main_cst_0 ∧ b ≠ main_v4) :
    W3 m ρ c (Proc.devRef .tc b) = W2 m ρ c (Proc.devRef .tc b) :=
  StableHlo.after_of_forall_not_mem (b := Proc.devRef .tc b) _ _ (List.forall_iff_forall_mem.mp (by
    simp only [hostOps1, List.Forall, StableHlo.nullary_writes, StableHlo.unary_writes, StableHlo.binary_writes, Finset.mem_singleton]
    exact ⟨StableHlo.devRef_ne_of_ne hb.1, StableHlo.devRef_ne_of_ne hb.2.1, StableHlo.devRef_ne_of_ne hb.2.2.1, StableHlo.devRef_ne_of_ne hb.2.2.2⟩))

/-- No piece of the program writes the first argument. -/
theorem W3_main_arg0 (c : Dev nD) : W3 m ρ c (Proc.devRef .tc main_arg0) = m ((c : Thread nD τ).loc main_arg0) :=
  (hostOps1_keeps m ρ c main_arg0 (by decide)).trans <| (W2_of_ne m ρ c main_arg0 (by decide)).trans <|
    (hostOps0_keeps m ρ c main_arg0 (by decide)).trans rfl
/-- Nor the second. -/
theorem W3_main_arg1 (c : Dev nD) : W3 m ρ c (Proc.devRef .tc main_arg1) = m ((c : Thread nD τ).loc main_arg1) :=
  (hostOps1_keeps m ρ c main_arg1 (by decide)).trans <| (W2_of_ne m ρ c main_arg1 (by decide)).trans <|
    (hostOps0_keeps m ρ c main_arg1 (by decide)).trans rfl

/-- The program runs to the end, faults nowhere, and leaves its two argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W3_main_arg0 m ρ c),
     (h c _ (mem_uc main_arg1 (by decide))).trans (W3_main_arg1 m ρ c)⟩) (run m ρ)

end Cert.KernelIdeal.Whole

end
-- ==== Proof.Spec.lean ====
/-
  The mathematics both programs compute, stated once over plain index types.

  Two arrays of 4096 rows of 128 numbers are stacked into 8192 rows. Row `i` is scored against every row `j` by
  their inner product scaled by the inverse temperature; the diagonal score (a row against itself) is replaced by
  the most negative finite number of the format. Row `i`'s PARTNER is the same row of the other array
  (`i + 4096` or `i - 4096`). The loss of a row is minus the log-softmax of its scores at its partner, and the
  result is the mean of the 8192 row losses.

  The two programs spell the row loss differently: one as `(log Σ_j e^(s_j - M) + M) - Σ_j [j = partner] s_j`
  (`lossLse`), the other as `-((s_partner - M) - log Σ_j e^(s_j - M))` (`lossLogp`), with `M` the row's
  maximum; and one scales by multiplying with a constant, the other by dividing by one. On finite scores the two
  spellings agree.
-/
import Idealize.ShloMosaic.PureOps.Ideal
import Idealize.ShloMosaic.Lib.ValueIdx

noncomputable section

open scoped BigOperators

namespace Cert.Contrast

open Idealize.ShloMosaic Idealize.ShloMosaic.ValueIdx

/-- An array of 4096 rows of 128 extended reals. -/
abbrev Half : Type := (⟨2, ![4096, 128]⟩ : Shape).Idx → EReal

/-- Row `i` of the two arrays stacked: the first 4096 rows are `z1`'s, the last 4096 are `z2`'s. -/
def stacked (z1 z2 : Half) (i : Fin 8192) (k : Fin 128) : EReal :=
  if h : i.val < 4096 then z1 (ix2 (⟨i.val, h⟩ : Fin 4096) k)
  else z2 (ix2 (⟨i.val - 4096, by have := i.isLt; omega⟩ : Fin 4096) k)

/-- The inner product of rows `i` and `j`. -/
def inner (z : Fin 8192 → Fin 128 → EReal) (i j : Fin 8192) : EReal := ∑ k : Fin 128, z i k * z j k

/-- The partner of row `i`: the same row of the other array. -/
def partner (i : Fin 8192) : Fin 8192 :=
  if h : i.val < 4096 then ⟨i.val + 4096, by omega⟩ else ⟨i.val - 4096, by have := i.isLt; omega⟩

/-- What replaces a row's score against itself: the most negative finite f32 number. -/
def fill : EReal := Ideal.ofBits .f32 0xFF7FFFFF#32

/-- Row `i`'s scores, each inner product MULTIPLIED by `c`, the diagonal filled. -/
def scoresMul (c : EReal) (z : Fin 8192 → Fin 128 → EReal) (i j : Fin 8192) : EReal :=
  if i = j then fill else inner z i j * c

/-- Row `i`'s scores, each inner product DIVIDED by `d`, the diagonal filled. -/
def scoresDiv (d : EReal) (z : Fin 8192 → Fin 128 → EReal) (i j : Fin 8192) : EReal :=
  if i = j then fill else Ideal.div (inner z i j) d

/-- A row's maximum, as the fold of `max` from `-∞`. -/
def rowMax (s : Fin 8192 → EReal) : EReal := (Finset.univ : Finset (Fin 8192)).fold max ⊥ s

/-- The sum of the exponentials of a row's scores shifted by its maximum. -/
def expSum (s : Fin 8192 → EReal) : EReal := ∑ j : Fin 8192, Ideal.exp (s j - rowMax s)

/-- The row loss spelt as log-sum-exp minus the score at `t` picked out by a masked sum. -/
def lossLse (s : Fin 8192 → EReal) (t : Fin 8192) : EReal :=
  (Ideal.log (expSum s) + rowMax s) - ∑ j : Fin 8192, (if j = t then s j else 0)

/-- The row loss spelt as minus the log-softmax at `t`. -/
def lossLogp (s : Fin 8192 → EReal) (t : Fin 8192) : EReal :=
  -((s t - rowMax s) - Ideal.log (expSum s))

/-- The mean of 8192 numbers as the programs take it: the sum started from `0`, divided by the f32 number 8192. -/
def mean (f : Fin 8192 → EReal) : EReal :=
  Ideal.div (Ideal.ofBits .f32 0x00000000#32 + ∑ i : Fin 8192, f i) (Ideal.ofBits .f32 0x46000000#32)

/-- The inverse temperature as the multiplying program reads it: the rational `67108864 / 13421773`, which is
    one over the f32 number nearest to `0.2`. -/
def invTemp : EReal := ((67108864 / 13421773 : ℝ) : EReal)

/-- The temperature as the dividing program reads it: the f32 number nearest to `0.2`. -/
def temp : EReal := Ideal.ofBits .f32 0x3E4CCCCD#32

/-- The result with the scores multiplied by the inverse temperature and the row loss as log-sum-exp. -/
def meanLossMul (z1 z2 : Half) : EReal :=
  mean fun i => lossLse (scoresMul invTemp (stacked z1 z2) i) (partner i)

/-- The result with the scores divided by the temperature and the row loss as minus the log-softmax. -/
def meanLossDiv (z1 z2 : Half) : EReal :=
  mean fun i => lossLogp (scoresDiv temp (stacked z1 z2) i) (partner i)

end Cert.Contrast

end
-- ==== Proof.RowIndex.lean ====
/-
  The row of the stacked array that a block's local row stands for, and the 32-bit word arithmetic by which the
  program recognises a row's own column and its partner's column.

  The 8192 rows are cut into 32 blocks of 256. Local row r of block g is row 256·g + r. The program forms that
  number as a 32-bit word, compares it with the column's number for the diagonal, and for the partner adds 4096
  to it when it is (as a signed word) below 4096 and subtracts 4096 otherwise. All numbers involved are below
  8192 + 4096 < 2^31, so the unsigned arithmetic does not wrap and the signed comparison is the comparison of
  naturals.
-/
import Idealize.ShloMosaic.Lib.ValueIdx

namespace Cert.KernelIdeal.BlockValue

open Idealize.ShloMosaic

/-- Local row r of the g-th block of 256 rows, as a row of the stacked array. -/
def rowAt (g : Nat) (hg : g < 32) (r : Fin 256) : Fin 8192 := ⟨256 * g + r.val, by have := r.isLt; omega⟩

theorem rowAt_val (g : Nat) (hg : g < 32) (r : Fin 256) : (rowAt g hg r).val = 256 * g + r.val := rfl

/-- The partner of row R, as a natural number: the same row of the other half. -/
def partnerNat (R : Nat) : Nat := if R < 4096 then R + 4096 else R - 4096

theorem partnerNat_lt (R : Nat) (h : R < 8192) : partnerNat R < 8192 := by
  unfold partnerNat; split <;> omega

/-- Two naturals below 2^32 have the same 32-bit word only if they are equal. -/
theorem ofNat_eq_iff (a b : Nat) (ha : a < 2 ^ 32) (hb : b < 2 ^ 32) :
    BitVec.ofNat 32 a = BitVec.ofNat 32 b ↔ a = b := by
  constructor
  · intro h
    have := congrArg BitVec.toNat h
    simp only [BitVec.toNat_ofNat] at this
    rwa [Nat.mod_eq_of_lt ha, Nat.mod_eq_of_lt hb] at this
  · rintro rfl; rfl

/-- The equality test of two such words answers 1 exactly when the naturals are equal. -/
theorem cmpi_eq_one_iff (a b : Nat) (ha : a < 2 ^ 32) (hb : b < 2 ^ 32) :
    IntOp.cmpi .eq (BitVec.ofNat 32 a) (BitVec.ofNat 32 b) = 1#1 ↔ a = b := by
  show BitVec.ofBool (BitVec.ofNat 32 a == BitVec.ofNat 32 b) = 1#1 ↔ a = b
  rw [← ofNat_eq_iff a b ha hb]
  by_cases h : BitVec.ofNat 32 a = BitVec.ofNat 32 b
  · simp [h]
  · have hf : (BitVec.ofNat 32 a == BitVec.ofNat 32 b) = false := beq_false_of_ne h
    rw [hf]
    exact ⟨fun h' => absurd h' (by decide), fun h' => absurd h' h⟩

/-- The signed comparison of a word below 2^31 with 4096 is the comparison of naturals. -/
theorem slt_4096 (a : Nat) (ha : a < 2 ^ 31) : (BitVec.ofNat 32 a).slt 4096#32 = decide (a < 4096) := by
  have h1 : (BitVec.ofNat 32 a).toInt = (a : Int) := by
    rw [BitVec.toInt_eq_toNat_of_lt (by simp only [BitVec.toNat_ofNat]; rw [Nat.mod_eq_of_lt (by omega)]; omega)]
    simp only [BitVec.toNat_ofNat]; rw [Nat.mod_eq_of_lt (by omega)]
  have h2 : (4096#32 : BitVec 32).toInt = 4096 := by decide
  unfold BitVec.slt
  rw [h1, h2]
  simp

theorem add_4096 (a : Nat) : BitVec.ofNat 32 a + 4096#32 = BitVec.ofNat 32 (a + 4096) := by
  rw [BitVec.ofNat_add]

theorem sub_4096 (a : Nat) (h : 4096 ≤ a) : BitVec.ofNat 32 a - 4096#32 = BitVec.ofNat 32 (a - 4096) := by
  have : BitVec.ofNat 32 a = BitVec.ofNat 32 (a - 4096) + 4096#32 := by
    rw [← BitVec.ofNat_add]; congr 1; omega
  rw [this, BitVec.add_sub_cancel]

/-- The word the program forms for local row r of block g is the word of 256·g + r. -/
theorem rowWord_eq (g : Nat) (r : Nat) :
    IntOp.addi (Scalar.muli (BitVec.ofNat 32 g) 256#32) (BitVec.ofNat 32 r) = BitVec.ofNat 32 (256 * g + r) := by
  show BitVec.ofNat 32 g * 256#32 + BitVec.ofNat 32 r = BitVec.ofNat 32 (256 * g + r)
  rw [Nat.mul_comm 256 g, BitVec.ofNat_add, BitVec.ofNat_mul]

/-- The diagonal test at row R and column j answers 1 exactly when j is R. -/
theorem diag_one_iff (R j : Fin 8192) :
    IntOp.cmpi .eq (BitVec.ofNat 32 R.val) (BitVec.ofNat 32 j.val) = 1#1 ↔ R = j := by
  rw [cmpi_eq_one_iff _ _ (by have := R.isLt; omega) (by have := j.isLt; omega)]
  exact ⟨fun h => Fin.ext h, fun h => congrArg Fin.val h⟩

/-- The word selected for the partner — R + 4096 when R is below 4096 as a signed word, R − 4096 otherwise — is the
    word of the partner's number. -/
theorem partnerWord_eq (R : Nat) (hR : R < 8192) :
    Scalar.select (IntOp.cmpi .slt (BitVec.ofNat 32 R) 4096#32)
        (IntOp.addi (BitVec.ofNat 32 R) 4096#32) (IntOp.subi (BitVec.ofNat 32 R) 4096#32)
      = BitVec.ofNat 32 (partnerNat R) := by
  show (if BitVec.ofBool ((BitVec.ofNat 32 R).slt 4096#32) = 1 then BitVec.ofNat 32 R + 4096#32
      else BitVec.ofNat 32 R - 4096#32) = BitVec.ofNat 32 (partnerNat R)
  rw [slt_4096 R (by omega)]
  unfold partnerNat
  by_cases h : R < 4096
  · rw [decide_eq_true h, if_pos h, if_pos (by rfl), add_4096]
  · rw [decide_eq_false h, if_neg h, if_neg (by decide), sub_4096 R (by omega)]

/-- The partner test at row R and column j answers 1 exactly when j is the partner's number. -/
theorem partner_one_iff (R j : Fin 8192) :
    IntOp.cmpi .eq (BitVec.ofNat 32 (partnerNat R.val)) (BitVec.ofNat 32 j.val) = 1#1 ↔ partnerNat R.val = j.val :=
  cmpi_eq_one_iff _ _ (by have := partnerNat_lt R.val R.isLt; omega) (by have := j.isLt; omega)

end Cert.KernelIdeal.BlockValue
-- ==== Proof.LibOneAxisDot.lean ====
/-
  A matrix product that contracts ONE axis, read at one output index, at the extended reals.

  Whatever the dimension numbers are (which axis of each operand is contracted, in which order the free axes
  appear in the result), once the contraction has a single axis of extent K the product's entry at an output
  index j is a sum over k < K of a left entry times a right entry: the left operand read at the index the
  dimension numbers assign to (j, k), the right operand likewise. The two families of operand indices are
  parameters here; each concrete product supplies them (for x · wᵀ they are (r, k) and (c, k), for x · w they
  are (r, k) and (k, c)). No finiteness is asked of any entry: only the index set of the sum is renamed.
-/
import Idealize.ShloMosaic.PureOps.Ideal.Laws
import Idealize.ShloMosaic.Lib.ValueIdx

noncomputable section

open scoped BigOperators

namespace Cert.Lib.OneAxisDot

open Idealize.ShloMosaic Idealize.ShloMosaic.ValueIdx

/-- The contraction's sum, indexed by the dimension numbers' own one-axis contraction index, is the sum over
    k < K of l(li k) · r(ri k), when li k and ri k are the operand indices at the k-th contraction index. -/
theorem contraction_sum_at {sl sr so : Shape} (d : DotDims sl sr so) (K : Nat) (hr : d.contr.rank = 1)
    (hs : d.contr.size ⟨0, by omega⟩ = K) (l : sl.Idx → EReal) (r : sr.Idx → EReal) (j : so.Idx)
    (li : Fin K → sl.Idx) (ri : Fin K → sr.Idx)
    (hl : ∀ k, d.lhsIdx j ((contrEquiv1 d K hr hs).symm k) = li k)
    (hrr : ∀ k, d.rhsIdx j ((contrEquiv1 d K hr hs).symm k) = ri k) :
    ∑ q : d.contr.Idx, l (d.lhsIdx j q) * r (d.rhsIdx j q) = ∑ k : Fin K, l (li k) * r (ri k) := by
  rw [← Equiv.sum_comp (contrEquiv1 d K hr hs).symm]
  exact Finset.sum_congr rfl fun k _ => by rw [hl k, hrr k]

/-- A matrix unit's product accumulated into the zero matrix, at output index j: the zero adds nothing, and the
    rest is the contraction's sum. -/
theorem matmul_zero_apply_at {sl sr so : Shape} {φ₁ φ₂ : FTy} (d : DotDims sl sr so) (K : Nat) (hr : d.contr.rank = 1)
    (hs : d.contr.size ⟨0, by omega⟩ = K) (prec : Option ContractPrecision)
    (l : FVec Ideal sl φ₁) (r : FVec Ideal sr φ₂) (j : so.Idx)
    (li : Fin K → sl.Idx) (ri : Fin K → sr.Idx)
    (hl : ∀ k, d.lhsIdx j ((contrEquiv1 d K hr hs).symm k) = li k)
    (hrr : ∀ k, d.rhsIdx j ((contrEquiv1 d K hr hs).symm k) = ri k) :
    matmul d prec l r (constant so .f32 0x00000000#32) j = ∑ k : Fin K, l (li k) * r (ri k) :=
  (Ideal.matmul_constant_zero_apply d prec l r j).trans (contraction_sum_at d K hr hs l r j li ri hl hrr)

/-- The host's dot_general at output index j: the same sum, with no accumulator. -/
theorem dotGeneral_apply_at {sl sr so : Shape} {φ₁ φ₂ : FTy} (d : DotDims sl sr so) (K : Nat) (hr : d.contr.rank = 1)
    (hs : d.contr.size ⟨0, by omega⟩ = K) (prec : Option ContractPrecision)
    (l : FVec Ideal sl φ₁) (r : FVec Ideal sr φ₂) (j : so.Idx)
    (li : Fin K → sl.Idx) (ri : Fin K → sr.Idx)
    (hl : ∀ k, d.lhsIdx j ((contrEquiv1 d K hr hs).symm k) = li k)
    (hrr : ∀ k, d.rhsIdx j ((contrEquiv1 d K hr hs).symm k) = ri k) :
    Host.dotGeneral d prec l r j = ∑ k : Fin K, l (li k) * r (ri k) :=
  (Ideal.dotGeneral_apply d prec .single l r j).trans (contraction_sum_at d K hr hs l r j li ri hl hrr)

end Cert.Lib.OneAxisDot

end
-- ==== Proof.BlockValueDot.lean ====
/-
  One entry of the block's product with the whole stacked array.

  The product contracts the second axis of BOTH operands (a block of rows times the transpose of all rows), so
  its entry at (r, j) is the inner product of the block's row r with the array's row j: the sum over k < 128 of
  the left operand at (r, k) times the right operand at (j, k). The accumulator is the zero matrix and adds
  nothing.
-/
import proofs.«101757_j26104811225348_1_alg».proof.Proof.Gen.KernelIdeal
import proofs.«101757_j26104811225348_1_alg».proof.Proof.LibOneAxisDot

noncomputable section

open scoped BigOperators

namespace Cert.KernelIdeal.BlockValue

open Idealize.ShloMosaic Idealize.ShloMosaic.ValueIdx Cert.KernelIdeal Cert.KernelIdeal.Gen

/-- The dimension numbers of the product: axis 1 of each operand contracted, axis 0 of each kept. -/
abbrev dims : DotDims S256x128 S8192x128 S256x8192 := dot_S256x128_S8192x128_S256x8192_1_1_0_0_n_n

/-- The left operand's row coordinate is the output's row. -/
theorem lhs_row (j : S256x8192.Idx) (q : dims.contr.Idx) : (dims.lhsIdx j q 0).val = (j 0).val := by
  unfold DotDims.lhsIdx
  rw [dif_neg (show ¬(0 : Fin S256x128.rank) ∈ dims.lhsBatch by decide),
    dif_pos (show (0 : Fin S256x128.rank) ∈ dims.lhsNonContracting by decide)]
  rfl

/-- The left operand's column coordinate is the contraction index. -/
theorem lhs_col (j : S256x8192.Idx) (q : dims.contr.Idx) : (dims.lhsIdx j q 1).val = (q ⟨0, by decide⟩).val :=
  dims.lhsIdx_val_of_single rfl j q

/-- The right operand's row coordinate is the output's column. -/
theorem rhs_row (j : S256x8192.Idx) (q : dims.contr.Idx) : (dims.rhsIdx j q 0).val = (j 1).val := by
  unfold DotDims.rhsIdx
  rw [dif_neg (show ¬(0 : Fin S8192x128.rank) ∈ dims.rhsBatch by decide),
    dif_pos (show (0 : Fin S8192x128.rank) ∈ dims.rhsNonContracting by decide)]
  rfl

/-- The right operand's column coordinate is the contraction index. -/
theorem rhs_col (j : S256x8192.Idx) (q : dims.contr.Idx) : (dims.rhsIdx j q 1).val = (q ⟨0, by decide⟩).val :=
  dims.rhsIdx_val_of_single rfl j q

/-- The product into the zero matrix at (r, j): the inner product of the left row r and the right row j. -/
theorem dot_apply (l : FVec Ideal S256x128 .bf16) (w : FVec Ideal S8192x128 .bf16) (r : Fin 256) (j : Fin 8192) :
    matmul dims none l w (constant (F := Ideal) S256x8192 .f32 0x00000000#32) (ix2 r j)
      = ∑ k : Fin 128, l (ix2 r k) * w (ix2 j k) :=
  Cert.Lib.OneAxisDot.matmul_zero_apply_at dims 128 rfl rfl none l w (ix2 r j) (fun k => ix2 r k) (fun k => ix2 j k)
    (fun k => funext fun a => Fin.ext (by
      match a with
      | ⟨0, _⟩ => exact lhs_row _ _
      | ⟨1, _⟩ => exact (lhs_col _ _).trans (contrEquiv1_symm_val dims 128 rfl rfl k)))
    (fun k => funext fun a => Fin.ext (by
      match a with
      | ⟨0, _⟩ => exact rhs_row _ _
      | ⟨1, _⟩ => exact (rhs_col _ _).trans (contrEquiv1_symm_val dims 128 rfl rfl k)))

end Cert.KernelIdeal.BlockValue

end
-- ==== Proof.BlockValueLanes.lean ====
/-
  The operations of the block's arithmetic that are not entry-by-entry, each read at one entry.

  A 256 × 8192 block is reduced along its second axis (a row's maximum; a row's sum), the 256 results are laid
  out as a 256 × 1 column, and a column or a 1 × 8192 row is spread back over the block. Read at coordinates:
  the reduction at r runs over the entries (r, j), j < 8192; the column at (r, 0) is the vector at r; the
  spread column at (r, j) is the column at (r, 0), the spread row at (r, j) is the row at (0, j). The maximum
  starts from the format's −∞, which is the bottom element of the extended reals.
-/
import proofs.«101757_j26104811225348_1_alg».proof.KernelIdeal
import Idealize.ShloMosaic.PureOps.Ideal.Laws
import Idealize.ShloMosaic.Lib.ValueLayout

noncomputable section

open scoped BigOperators

namespace Cert.KernelIdeal.BlockValue

open Idealize.ShloMosaic Idealize.ShloMosaic.ValueIdx Cert.KernelIdeal

/-- The index of the block that drops to r and has j on the reduced axis is (r, j). -/
theorem lift_ix (h : S256x8192.Reduces [1] S256) (r : Fin 256) (k : Fin 8192) : h.lift (ix1 r) k = ix2 r k :=
  funext fun a => match a with
    | ⟨0, _⟩ => Fin.ext rfl
    | ⟨1, _⟩ => Fin.ext rfl

/-- The f32 pattern of −∞ is the bottom of the extended reals. -/
theorem negInf_eq_bot : Ideal.ofBits .f32 0xFF800000#32 = (⊥ : EReal) := by
  simp [Ideal.ofBits, Ideal.ieee]

/-- A row's sum: the lane sum of the block at r is the sum of the entries (r, j). -/
theorem laneSum_apply (src : FVec Ideal S256x8192 .f32) (h : S256x8192.Reduces [1] S256) (hφ : FKind.Formats .f32)
    (hacc : (0x00000000#32 : BitVec 32) = 0x00000000#32) (r : Fin 256) :
    multiReduction .add [1] S256 src 0x00000000#32 h hφ hacc (ix1 r) = ∑ j : Fin 8192, src (ix2 r j) :=
  (Ideal.multiReduction_add_single src 0x00000000#32 h hφ hacc (ix1 r)).trans
    (Finset.sum_congr rfl fun k _ => congrArg src (lift_ix h r k))

/-- A row's maximum: the lane maximum of the block at r is the fold of max from −∞ over the entries (r, j). -/
theorem laneMax_apply (src : FVec Ideal S256x8192 .f32) (h : S256x8192.Reduces [1] S256) (hφ : FKind.Formats .f32)
    (hacc : (0xFF800000#32 : BitVec 32) = 0xFF800000#32) (r : Fin 256) :
    multiReduction .maximumf [1] S256 src 0xFF800000#32 h hφ hacc (ix1 r)
      = (Finset.univ : Finset (Fin 8192)).fold max ⊥ (fun j => src (ix2 r j)) := by
  refine (Ideal.multiReduction_maximumf_single src 0xFF800000#32 h hφ hacc (ix1 r)).trans ?_
  have e : (src ∘ h.lift (ix1 r)) = fun j : Fin 8192 => src (ix2 r j) :=
    funext fun k => congrArg src (lift_ix h r k)
  rw [e]
  exact congrArg (fun b => (Finset.univ : Finset (Fin 8192)).fold max b fun j => src (ix2 r j)) negInf_eq_bot

/-- A vector of 256 entries laid out as a column reads, at (r, 0), the vector at r. -/
theorem column_apply {α : Type} (x : S256.Idx → α) (h : S256.ShapeCasts S256x1) (r : Fin 256) :
    shapeCast S256x1 x h (ix2 r (0 : Fin 1)) = x (ix1 r) :=
  shapeCast_apply x h _ _ (by
    rw [Shape.rowMajor_val_one, Shape.rowMajor_val_two]
    show r.val = r.val * 1 + 0
    omega)

/-- A column spread over the block reads, at (r, j), the column at (r, 0). -/
theorem spreadColumn_apply {α : Type} (x : S256x1.Idx → α) (h : S256x1.Broadcasts S256x8192) (r : Fin 256) (j : Fin 8192) :
    broadcastTo S256x8192 x h (ix2 r j) = x (ix2 r (0 : Fin 1)) :=
  broadcastTo_apply x h (ix2 r j) (ix2 r (0 : Fin 1)) fun ax =>
    match ax with
    | ⟨0, _⟩ => rfl
    | ⟨1, _⟩ => rfl

/-- A row spread over the block reads, at (r, j), the row at (0, j). -/
theorem spreadRow_apply {α : Type} (x : S1x8192.Idx → α) (h : S1x8192.Broadcasts S256x8192) (r : Fin 256) (j : Fin 8192) :
    broadcastTo S256x8192 x h (ix2 r j) = x (ix2 (0 : Fin 1) j) :=
  broadcastTo_1b_ab_apply x h r j

end Cert.KernelIdeal.BlockValue

end
-- ==== Proof.BlockValueScores.lean ====
/-
  The block of masked scores and the partner mask, each read at one entry.

  Entry (r, j) of the block's product with the whole array, times the inverse temperature, is the score of the
  block's row r against row j; the program replaces it by the fill value where the row's number R = 256·g + r
  equals j. The row numbers and column numbers are 32-bit words; the partner mask is 1 where the column's word
  equals the word of R + 4096 (R below 4096) or R − 4096 (otherwise), which is exactly at the partner's column.
-/
import proofs.«101757_j26104811225348_1_alg».proof.Proof.Gen.KernelIdeal
import proofs.«101757_j26104811225348_1_alg».proof.Proof.BlockValueDot
import proofs.«101757_j26104811225348_1_alg».proof.Proof.BlockValueLanes
import proofs.«101757_j26104811225348_1_alg».proof.Proof.RowIndex
import proofs.«101757_j26104811225348_1_alg».proof.Proof.Spec
import Idealize.ShloMosaic.PureOps.IdealRules

noncomputable section

open scoped BigOperators

namespace Cert.KernelIdeal.BlockValue

open Idealize.ShloMosaic Idealize.ShloMosaic.ValueIdx Cert.KernelIdeal Cert.KernelIdeal.Gen

/-- The row of the stacked array held at local row r of the block the grid point i loads. -/
abbrev row (i : grid0.Coords) (r : Fin 256) : Fin 8192 := rowAt (i 0).val (i 0).isLt r

/-- The partner of the specification is the partner number of the word arithmetic. -/
theorem partner_val (R : Fin 8192) : (Cert.Contrast.partner R).val = partnerNat R.val := by
  unfold Cert.Contrast.partner partnerNat
  split <;> rfl

/-- The named constant the products are multiplied by is the inverse temperature. -/
theorem named_invTemp :
    Named.named (F := Ideal) κ "inv_temperature" (φ := .f32) 0x40A00000#32 = Cert.Contrast.invTemp :=
  IdealRules.named_const.ideal_named_scalar _ _ _ _ rfl

/-- The block's row numbers as words, a column. -/
def rowWords (i : grid0.Coords) : IVec S256x1 32 :=
  addi (broadcast S256x1 (Scalar.muli (BitVec.ofNat 32 (i 0).val) 256#32)) (iota .tc S256x1 32 [0] iota_S256x1_d0_w32)

theorem rowWords_apply (i : grid0.Coords) (r : Fin 256) :
    rowWords i (ix2 r (0 : Fin 1)) = BitVec.ofNat 32 (row i r).val := by
  have e := iota_single_apply .tc S256x1 32 (0 : Fin 2) iota_S256x1_d0_w32 (ix2 r (0 : Fin 1))
  exact (congrArg (IntOp.addi (Scalar.muli (BitVec.ofNat 32 (i 0).val) 256#32)) e).trans (rowWord_eq (i 0).val r.val)

/-- The column numbers as words, a row. -/
def colWords : IVec S1x8192 32 := iota .tc S1x8192 32 [1] iota_S1x8192_d1_w32

theorem colWords_apply (j : Fin 8192) : colWords (ix2 (0 : Fin 1) j) = BitVec.ofNat 32 j.val :=
  iota_single_apply .tc S1x8192 32 (1 : Fin 2) iota_S1x8192_d1_w32 (ix2 (0 : Fin 1) j)

/-- 1 where the row's number is the column's. -/
def diagMask (i : grid0.Coords) : IVec S256x8192 1 :=
  cmpi .eq (broadcastTo S256x8192 (rowWords i) broadcasts_S256x1_S256x8192)
    (broadcastTo S256x8192 colWords broadcasts_S1x8192_S256x8192)

theorem diagMask_one_iff (i : grid0.Coords) (r : Fin 256) (j : Fin 8192) :
    diagMask i (ix2 r j) = 1#1 ↔ row i r = j := by
  show IntOp.cmpi .eq (broadcastTo S256x8192 (rowWords i) broadcasts_S256x1_S256x8192 (ix2 r j))
      (broadcastTo S256x8192 colWords broadcasts_S1x8192_S256x8192 (ix2 r j)) = 1#1 ↔ _
  rw [spreadColumn_apply, spreadRow_apply, rowWords_apply, colWords_apply]
  exact diag_one_iff (row i r) j

/-- The partners' numbers as words, a column. -/
def partnerWords (i : grid0.Coords) : IVec S256x1 32 :=
  select (cmpi .slt (rowWords i) (broadcast S256x1 4096#32)) (addi (rowWords i) (broadcast S256x1 4096#32))
    (subi (rowWords i) (broadcast S256x1 4096#32))

theorem partnerWords_apply (i : grid0.Coords) (r : Fin 256) :
    partnerWords i (ix2 r (0 : Fin 1)) = BitVec.ofNat 32 (partnerNat (row i r).val) := by
  show Scalar.select (IntOp.cmpi .slt (rowWords i (ix2 r (0 : Fin 1))) 4096#32)
      (IntOp.addi (rowWords i (ix2 r (0 : Fin 1))) 4096#32) (IntOp.subi (rowWords i (ix2 r (0 : Fin 1))) 4096#32) = _
  rw [rowWords_apply]
  exact partnerWord_eq (row i r).val (row i r).isLt

/-- 1 where the column is the row's partner. -/
def partnerMask (i : grid0.Coords) : IVec S256x8192 1 :=
  cmpi .eq (broadcastTo S256x8192 (partnerWords i) broadcasts_S256x1_S256x8192)
    (broadcastTo S256x8192 colWords broadcasts_S1x8192_S256x8192)

theorem partnerMask_one_iff (i : grid0.Coords) (r : Fin 256) (j : Fin 8192) :
    partnerMask i (ix2 r j) = 1#1 ↔ j = Cert.Contrast.partner (row i r) := by
  show IntOp.cmpi .eq (broadcastTo S256x8192 (partnerWords i) broadcasts_S256x1_S256x8192 (ix2 r j))
      (broadcastTo S256x8192 colWords broadcasts_S1x8192_S256x8192 (ix2 r j)) = 1#1 ↔ _
  rw [spreadColumn_apply, spreadRow_apply, partnerWords_apply, colWords_apply, partner_one_iff (row i r) j,
    ← partner_val]
  exact ⟨fun h => Fin.ext h.symm, fun h => (congrArg Fin.val h).symm⟩

/-- The block of scores: the products times the inverse temperature, the fill value on the diagonal. -/
def scoresBlock (i : grid0.Coords) (v1 : Vec Ideal S256x128 .bf16) (v3 : Vec Ideal S8192x128 .bf16) :
    FVec Ideal S256x8192 .f32 :=
  select (diagMask i) (broadcast S256x8192 (Scalar.ofBits (F := Ideal) .f32 0xFF7FFFFF#32))
    (mulf (matmul (φ₁ := .bf16) (φ₂ := .bf16) dims none (shapeCast S256x128 v1 shapeCasts_S256x128_S256x128)
        (shapeCast S8192x128 v3 shapeCasts_S8192x128_S8192x128) (constant (F := Ideal) S256x8192 .f32 0x00000000#32))
      (broadcast S256x8192 (Named.named (F := Ideal) κ "inv_temperature" (φ := .f32) 0x40A00000#32)))

/-- When the block holds rows 256·g … 256·g + 255 of an array z and the second operand is all of z, entry (r, j) of
    the block of scores is the specification's score of row 256·g + r against row j. -/
theorem scoresBlock_apply (i : grid0.Coords) (v1 : Vec Ideal S256x128 .bf16) (v3 : Vec Ideal S8192x128 .bf16)
    (z : Fin 8192 → Fin 128 → EReal)
    (h1 : ∀ (r : Fin 256) (k : Fin 128), v1 (ix2 r k) = z (row i r) k)
    (h3 : ∀ (j : Fin 8192) (k : Fin 128), v3 (ix2 j k) = z j k) (r : Fin 256) (j : Fin 8192) :
    scoresBlock i v1 v3 (ix2 r j) = Cert.Contrast.scoresMul Cert.Contrast.invTemp z (row i r) j := by
  unfold scoresBlock
  rw [shapeCast_self, shapeCast_self]
  show Scalar.select (diagMask i (ix2 r j)) (Ideal.ofBits .f32 0xFF7FFFFF#32)
      (matmul (φ₁ := .bf16) (φ₂ := .bf16) dims none v1 v3 (constant (F := Ideal) S256x8192 .f32 0x00000000#32) (ix2 r j)
        * Named.named (F := Ideal) κ "inv_temperature" (φ := .f32) 0x40A00000#32) = _
  rw [dot_apply v1 v3 r j, named_invTemp, Finset.sum_congr rfl fun k _ => by rw [h1 r k, h3 j k]]
  unfold Cert.Contrast.scoresMul
  by_cases h : row i r = j
  · rw [if_pos h, (diagMask_one_iff i r j).2 h, select_one]; rfl
  · rw [if_neg h, eq_zero_of_ne_one (fun h' => h ((diagMask_one_iff i r j).1 h')), select_zero]; rfl

end Cert.KernelIdeal.BlockValue

end
-- ==== Proof.BlockValueLoss.lean ====
/-
  From a block of scores and a partner mask to the block's column of row losses.

  Given the 256 × 8192 block S of (already masked) scores and a 0/1 mask c that marks, in each row, the partner's
  column, the program forms, per row r: the maximum M_r of the row, the sum over j of exp(S(r,j) − M_r), its
  logarithm plus M_r, and from that subtracts the sum over j of (S(r,j) where c(r,j) is 1, zero elsewhere). When the
  mask's only 1 in row r is at column t, that last sum is the masked sum of the specification, and the whole is the
  log-sum-exp spelling of the row loss of the row j ↦ S(r,j) at t.
-/
import proofs.«101757_j26104811225348_1_alg».proof.Proof.BlockValueLanes
import proofs.«101757_j26104811225348_1_alg».proof.Proof.Spec

noncomputable section

open scoped BigOperators

namespace Cert.KernelIdeal.BlockValue

open Idealize.ShloMosaic Idealize.ShloMosaic.ValueIdx Cert.KernelIdeal

variable (hr : S256x8192.Reduces [1] S256) (hc : S256.ShapeCasts S256x1) (hb : S256x1.Broadcasts S256x8192)

/-- The rows' maxima, as a column. -/
def maxColumn (S : FVec Ideal S256x8192 .f32) : FVec Ideal S256x1 .f32 :=
  shapeCast S256x1 (multiReduction (F := Ideal) .maximumf [1] S256 S 0xFF800000#32 hr (.inl rfl) rfl) hc

theorem maxColumn_apply (S : FVec Ideal S256x8192 .f32) (r : Fin 256) :
    maxColumn hr hc S (ix2 r (0 : Fin 1)) = (Finset.univ : Finset (Fin 8192)).fold max ⊥ (fun j => S (ix2 r j)) :=
  (column_apply _ hc r).trans (laneMax_apply S hr (.inl rfl) rfl r)

/-- The rows' sums, as a column. -/
def sumColumn (X : FVec Ideal S256x8192 .f32) : FVec Ideal S256x1 .f32 :=
  shapeCast S256x1 (multiReduction (F := Ideal) .add [1] S256 X 0x00000000#32 hr (.inl rfl) rfl) hc

theorem sumColumn_apply (X : FVec Ideal S256x8192 .f32) (r : Fin 256) :
    sumColumn hr hc X (ix2 r (0 : Fin 1)) = ∑ j : Fin 8192, X (ix2 r j) :=
  (column_apply _ hc r).trans (laneSum_apply X hr (.inl rfl) rfl r)

/-- The exponentials of the scores shifted by their row's maximum. -/
def expBlock (S : FVec Ideal S256x8192 .f32) : FVec Ideal S256x8192 .f32 :=
  exp (subf S (broadcastTo S256x8192 (maxColumn hr hc S) hb))

theorem expBlock_apply (S : FVec Ideal S256x8192 .f32) (r : Fin 256) (j : Fin 8192) :
    expBlock hr hc hb S (ix2 r j)
      = Ideal.exp (S (ix2 r j) - (Finset.univ : Finset (Fin 8192)).fold max ⊥ (fun j => S (ix2 r j))) := by
  show Ideal.exp (S (ix2 r j) - broadcastTo S256x8192 (maxColumn hr hc S) hb (ix2 r j)) = _
  rw [spreadColumn_apply (maxColumn hr hc S) hb r j, maxColumn_apply hr hc S r]

/-- The scores where the mask is 1, zero elsewhere. -/
def picked (S : FVec Ideal S256x8192 .f32) (c : IVec S256x8192 1) : FVec Ideal S256x8192 .f32 :=
  select c S (broadcast S256x8192 (Scalar.ofBits (F := Ideal) .f32 0x00000000#32))

theorem picked_apply (S : FVec Ideal S256x8192 .f32) (c : IVec S256x8192 1) (r : Fin 256) (t j : Fin 8192)
    (ht : c (ix2 r j) = 1#1 ↔ j = t) :
    picked S c (ix2 r j) = if j = t then S (ix2 r j) else 0 := by
  show Scalar.select (c (ix2 r j)) (S (ix2 r j)) (Ideal.ofBits .f32 0x00000000#32) = _
  rw [Ideal.ofBits_zero_f32]
  by_cases h : j = t
  · rw [if_pos h, ht.2 h, select_one]
  · rw [if_neg h, eq_zero_of_ne_one (fun h' => h (ht.1 h')), select_zero]

/-- The block's column of row losses: log of the row's sum of shifted exponentials, plus the row's maximum, minus the
    row's picked score. -/
def lossColumn (S : FVec Ideal S256x8192 .f32) (c : IVec S256x8192 1) : FVec Ideal S256x1 .f32 :=
  subf (addf (log (sumColumn hr hc (expBlock hr hc hb S))) (maxColumn hr hc S)) (sumColumn hr hc (picked S c))

/-- At row r, when the mask's 1 in that row sits exactly at column t, the column holds the log-sum-exp row loss of
    the row's scores at t. -/
theorem lossColumn_apply (S : FVec Ideal S256x8192 .f32) (c : IVec S256x8192 1) (r : Fin 256) (t : Fin 8192)
    (ht : ∀ j : Fin 8192, c (ix2 r j) = 1#1 ↔ j = t) :
    lossColumn hr hc hb S c (ix2 r (0 : Fin 1)) = Cert.Contrast.lossLse (fun j => S (ix2 r j)) t := by
  show (Ideal.log (sumColumn hr hc (expBlock hr hc hb S) (ix2 r (0 : Fin 1))) + maxColumn hr hc S (ix2 r (0 : Fin 1)))
      - sumColumn hr hc (picked S c) (ix2 r (0 : Fin 1)) = _
  rw [sumColumn_apply, sumColumn_apply, maxColumn_apply]
  unfold Cert.Contrast.lossLse Cert.Contrast.expSum Cert.Contrast.rowMax
  rw [Finset.sum_congr rfl fun j _ => expBlock_apply hr hc hb S r j,
    Finset.sum_congr rfl fun j _ => picked_apply S c r t j (ht j)]

end Cert.KernelIdeal.BlockValue

end
-- ==== Proof.BlockValue.lean ====
/-
  The block's arithmetic at one entry.

  At grid point g the program's body takes rows 256·g … 256·g + 255 of the stacked array (the block) and the whole
  stacked array, and produces a column of 256 numbers. Its arithmetic is the composition of two pieces: the
  block of masked scores together with the partner mask, and the passage from those to the column of row losses.
  Read at local row r, with R = 256·g + r: the masked scores of row R against every row, reduced by the
  log-sum-exp spelling of the row loss at R's partner.
-/
import proofs.«101757_j26104811225348_1_alg».proof.Proof.Gen.KernelIdeal.Skeleton
import proofs.«101757_j26104811225348_1_alg».proof.Proof.Spec
import proofs.«101757_j26104811225348_1_alg».proof.Proof.RowIndex
import proofs.«101757_j26104811225348_1_alg».proof.Proof.BlockValueScores
import proofs.«101757_j26104811225348_1_alg».proof.Proof.BlockValueLoss

noncomputable section

open scoped BigOperators

namespace Cert.KernelIdeal.BlockValue

open Idealize.ShloMosaic Idealize.ShloMosaic.ValueIdx Cert.KernelIdeal Cert.KernelIdeal.Gen

set_option maxRecDepth 65536 in
/-- The body's arithmetic is the column of row losses of the block of scores under the partner mask: the two are
    the same composition of operations, written once in one piece and once in two. -/
theorem pay_eq (i : grid0.Coords) (v1 : Vec Ideal S256x128 .bf16) (v3 : Vec Ideal S8192x128 .bf16) :
    Gen.k0_pay1 (F := Ideal) i v1 v3
      = lossColumn reduces_S256x8192_S256 shapeCasts_S256_S256x1 broadcasts_S256x1_S256x8192
          (scoresBlock i v1 v3) (partnerMask i) := rfl

/-- When the block holds rows 256·g … 256·g + 255 of an array z and the second operand is all of z, the body's
    result at local row r is the log-sum-exp row loss of row 256·g + r's masked scores at that row's partner. -/
theorem pay_apply (i : Cert.KernelIdeal.grid0.Coords) (v1 : Vec Ideal Cert.KernelIdeal.S256x128 .bf16)
    (v3 : Vec Ideal Cert.KernelIdeal.S8192x128 .bf16) (z : Fin 8192 → Fin 128 → EReal)
    (h1 : ∀ (r : Fin 256) (k : Fin 128), v1 (ix2 r k) = z (row i r) k)
    (h3 : ∀ (j : Fin 8192) (k : Fin 128), v3 (ix2 j k) = z j k) (r : Fin 256) :
    Cert.KernelIdeal.Gen.k0_pay1 (F := Ideal) i v1 v3 (ix2 r (0 : Fin 1))
      = Cert.Contrast.lossLse (Cert.Contrast.scoresMul Cert.Contrast.invTemp z (row i r)) (Cert.Contrast.partner (row i r)) := by
  rw [pay_eq, lossColumn_apply _ _ _ _ _ r (Cert.Contrast.partner (row i r)) (fun j => partnerMask_one_iff i r j)]
  exact congrArg (fun s => Cert.Contrast.lossLse s (Cert.Contrast.partner (row i r)))
    (funext fun j => scoresBlock_apply i v1 v3 z h1 h3 r j)

end Cert.KernelIdeal.BlockValue

end
-- ==== Proof.BlocksToArrayReads.lean ====
/-
  Where the blocks of a grid point lie in their arrays.

  There are 32 grid points. At point t the first window's block is rows 256·t … 256·t + 255 of the stacked array,
  the second window's block is the whole stacked array, and the output's block is rows 256·t … 256·t + 255 of the
  result column. A block's coordinate in its array is always (block index) × (block extent) + the coordinate
  inside the block; the block indices are read off the index maps once, over all 32 points.
-/
import proofs.«101757_j26104811225348_1_alg».proof.Proof.KernelIdealBody
import proofs.«101757_j26104811225348_1_alg».proof.Proof.BlockValue
import Idealize.ShloMosaic.Lib.Pipeline.Value

set_option maxRecDepth 16384

noncomputable section

open scoped BigOperators

namespace Cert.KernelIdeal.BlocksToArray

open Cert.KernelIdeal Cert.KernelIdeal.Gen Cert.KernelIdeal.Body Cert.KernelIdeal.BlockValue
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zeroOffsets : (![0, 0] : Fin 2 → Nat) = fun _ => 0 := funext fun a => by fin_cases a <;> rfl

/-- The block indices at point t: the row-block windows are at block t of their first axis, the whole-array window
    at block 0; and the point's one grid coordinate is t. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ (grid0.coords t (0 : Fin 1)).val = t.val :=
  (by decide +kernel : ∀ t : Fin grid0.N, _)

/-- The row of the stacked array at local row r of point t's block is row 256·t + r. -/
theorem row_coords_val (t : Fin cfg0.N) (r : Fin 256) : (row (grid0.coords t) r).val = 256 * t.val + r.val := by
  obtain ⟨-, -, -, -, -, -, e⟩ := index_facts t
  show 256 * (grid0.coords t (0 : Fin 1)).val + r.val = _
  rw [e]

/-- The first window's block at point t, at (r, k), is the stacked array at (256·t + r, k). -/
theorem rowBlock_read (c : Dev nD) (Z : Fin 8192 → Fin 128 → EReal)
    (hZ : ∀ (j : Fin 8192) (k : Fin 128), (V c main_v1 : S8192x128.Idx → EReal) (ix2 j k) = Z j k)
    (t : Fin cfg0.N) (r : Fin 256) (k : Fin 128) :
    (Body.iblk V c 0 t : Vec Ideal S256x128 .bf16) (ix2 r k) = Z (row (grid0.coords t) r) k := by
  obtain ⟨e0, e1, -, -, -, -, -⟩ := index_facts t
  unfold Body.iblk
  rw [View.read_apply]
  refine (congrArg (V c main_v1 : S8192x128.Idx → EReal)
    (?_ : _ = ix2 (row (grid0.coords t) r) k)).trans (hZ _ k)
  funext a
  apply Fin.ext
  match a with
  | ⟨0, _⟩ =>
    show win0_0.index t (0 : Fin 2) * 256 + 1 * r.val = (row (grid0.coords t) r).val
    rw [row_coords_val, e0]; omega
  | ⟨1, _⟩ =>
    show win0_0.index t (1 : Fin 2) * 128 + 1 * k.val = k.val
    rw [e1]; omega

/-- The second window's block at any point, at (j, k), is the stacked array at (j, k). -/
theorem wholeBlock_read (c : Dev nD) (Z : Fin 8192 → Fin 128 → EReal)
    (hZ : ∀ (j : Fin 8192) (k : Fin 128), (V c main_v1 : S8192x128.Idx → EReal) (ix2 j k) = Z j k)
    (t : Fin cfg0.N) (j : Fin 8192) (k : Fin 128) :
    (Body.iblk V c 1 t : Vec Ideal S8192x128 .bf16) (ix2 j k) = Z j k := by
  obtain ⟨-, -, e0, e1, -, -, -⟩ := index_facts t
  unfold Body.iblk
  rw [View.read_apply]
  refine (congrArg (V c main_v1 : S8192x128.Idx → EReal) (?_ : _ = ix2 j k)).trans (hZ j k)
  funext a
  apply Fin.ext
  match a with
  | ⟨0, _⟩ =>
    show win0_1.index t (0 : Fin 2) * 8192 + 1 * j.val = j.val
    rw [e0]; omega
  | ⟨1, _⟩ =>
    show win0_1.index t (1 : Fin 2) * 128 + 1 * k.val = k.val
    rw [e1]; omega

end Cert.KernelIdeal.BlocksToArray

end
-- ==== Proof.BlocksToArray.lean ====
/-
  From what each grid point writes back to the whole array of row losses.

  The 8192 × 1 result array is written in 32 blocks of 256 rows, block t by grid point t. Point t's body sees rows
  256·t … 256·t + 255 of the stacked array (its first window's block) and the whole stacked array (its second
  window's block, the same at every point), so the column it writes holds, at local row r, the row loss of row
  256·t + r. The 32 blocks tile the array — row R lies in block R / 256 — so after the last write-back entry
  (R, 0) is the row loss of row R.
-/
import proofs.«101757_j26104811225348_1_alg».proof.Proof.KernelIdealBody
import proofs.«101757_j26104811225348_1_alg».proof.Proof.BlockValue
import proofs.«101757_j26104811225348_1_alg».proof.Proof.BlocksToArrayReads
import proofs.«101757_j26104811225348_1_alg».proof.Proof.Spec
import Idealize.ShloMosaic.Lib.Pipeline.Value

set_option maxRecDepth 16384

noncomputable section

open scoped BigOperators

namespace Cert.KernelIdeal.BlocksToArray

open Cert.KernelIdeal Cert.KernelIdeal.Gen Cert.KernelIdeal.Body Cert.KernelIdeal.BlockValue
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The array of row losses: entry (R, 0) is the log-sum-exp row loss of row R's masked scores at R's partner. -/
def lossArray (Z : Fin 8192 → Fin 128 → EReal) : S8192x1.Idx → EReal := fun i =>
  Cert.Contrast.lossLse (Cert.Contrast.scoresMul Cert.Contrast.invTemp Z ⟨(i 0).val, (i 0).isLt⟩)
    (Cert.Contrast.partner ⟨(i 0).val, (i 0).isLt⟩)

/-- The row loss depends on the row only through its number. -/
theorem loss_congr (Z : Fin 8192 → Fin 128 → EReal) (R R' : Fin 8192) (h : R' = R) :
    Cert.Contrast.lossLse (Cert.Contrast.scoresMul Cert.Contrast.invTemp Z R) (Cert.Contrast.partner R)
      = Cert.Contrast.lossLse (Cert.Contrast.scoresMul Cert.Contrast.invTemp Z R') (Cert.Contrast.partner R') := by
  subst h; rfl

/-- What point t writes back is block t of the array of row losses: the body's column at local row r is the loss of
    row 256·t + r, and the output block's local row r is the array's row 256·t + r. -/
theorem flushed_eq (c : Dev nD) (Z : Fin 8192 → Fin 128 → EReal)
    (hZ : ∀ (j : Fin 8192) (k : Fin 128), (V c main_v1 : S8192x128.Idx → EReal) (ix2 j k) = Z j k) (t : Fin cfg0.N) :
    (Body.dat (F := Ideal) V c).flushed 2 t = ((cfg0.win 2).blk t).view.read (Elt Ideal) (lossArray Z) := by
  show (cfg0.win 2).cut (grid0.coords t) ((Body.dat (F := Ideal) V c).after 2 t) = _
  rw [Body.after_2]
  unfold Body.outCol
  rw [View.canon_unit_zero zeroOffsets]
  simp only [View.ld_unit_zero (S := S256x128) zeroOffsets, View.ld_unit_zero (S := S8192x128) zeroOffsets]
  obtain ⟨-, -, -, -, e0, e1, -⟩ := index_facts t
  funext j
  have hj0 : (j 0).val < 256 := (j 0).isLt
  have hj1 : (j 1).val < 1 := (j 1).isLt
  have hidx : (cfg0.win 2).xinj (grid0.coords t) j = ix2 (⟨(j 0).val, hj0⟩ : Fin 256) (0 : Fin 1) :=
    funext fun a => match a with
      | ⟨0, _⟩ => Fin.ext rfl
      | ⟨1, _⟩ => Fin.ext (by show (j 1).val = 0; omega)
  refine (congrArg (k0_pay1 (F := Ideal) (grid0.coords t) (Body.iblk V c 0 t) (Body.iblk V c 1 t)) hidx).trans ?_
  refine (pay_apply (grid0.coords t) (Body.iblk V c 0 t) (Body.iblk V c 1 t) Z
    (fun r k => rowBlock_read V c Z hZ t r k) (fun j k => wholeBlock_read V c Z hZ t j k) ⟨(j 0).val, hj0⟩).trans ?_
  rw [View.read_apply]
  unfold lossArray
  refine loss_congr Z _ _ (Fin.ext ?_)
  show win0_2.index t (0 : Fin 2) * 256 + 1 * (j 0).val = (row (grid0.coords t) ⟨(j 0).val, hj0⟩).val
  rw [row_coords_val, e0]
  show t.val * 256 + 1 * (j 0).val = 256 * t.val + (j 0).val
  omega

/-- An index of the result array is in point t's block iff each coordinate is in the block's range on its axis. -/
theorem mem_block (t : Fin cfg0.N) (i : S8192x1.Idx) :
    i ∈ ((cfg0.win 2).blk t).view.set ↔ ∀ a : Fin 2, win0_2.index t a * S256x1.size a ≤ (i a).val
      ∧ (i a).val < win0_2.index t a * S256x1.size a + S256x1.size a := by
  show i ∈ ((View.whole main_v2).slice (win0_2.rect t)).set ↔ _
  rw [View.set_slice_whole, Rect.mem_set_unit]
  exact Iff.rfl

/-- Every entry of the result array is written back by some point: row R by point R / 256. -/
theorem covered (i : S8192x1.Idx) :
    ∃ t : Fin cfg0.N, (cfg0.win 2).flush t = true ∧ i ∈ ((cfg0.win 2).blk t).view.set := by
  have hi0 : (i 0).val < 8192 := (i 0).isLt
  have hi1 : (i 1).val < 1 := (i 1).isLt
  have hN : cfg0.N = 32 := N_0
  obtain ⟨t, ht⟩ : ∃ t : Fin cfg0.N, t.val = (i 0).val / 256 := ⟨⟨(i 0).val / 256, by rw [hN]; omega⟩, rfl⟩
  obtain ⟨-, -, -, -, e0, e1, -⟩ := index_facts t
  refine ⟨t, flush0_2 t, ?_⟩
  rw [mem_block]
  intro a
  match a with
  | ⟨0, _⟩ =>
    show win0_2.index t (0 : Fin 2) * 256 ≤ (i 0).val ∧ (i 0).val < win0_2.index t (0 : Fin 2) * 256 + 256
    rw [e0, ht]; omega
  | ⟨1, _⟩ =>
    show win0_2.index t (1 : Fin 2) * 1 ≤ (i 1).val ∧ (i 1).val < win0_2.index t (1 : Fin 2) * 1 + 1
    rw [e1]; omega

/-- After every write-back the result array holds, at (R, 0), the row loss of row R. -/
theorem final_out (V : (c : Dev nD) → (b : Ref sig .tc) → Buf (Elt Ideal) ((c : Thread nD τ).loc b)) (c : Dev nD)
    (Z : Fin 8192 → Fin 128 → EReal)
    (hZ : ∀ (j : Fin 8192) (k : Fin 128), (V c main_v1 : S8192x128.Idx → EReal) (ix2 j k) = Z j k) :
    (Body.dat (F := Ideal) V c).arrAt 2 cfg0.N = lossArray Z :=
  (Body.dat (F := Ideal) V c).arrAt_eq_of_cover 2 (lossArray Z) (fun t _ => flushed_eq V c Z hZ t) covered

end Cert.KernelIdeal.BlocksToArray

end
-- ==== Proof.StackedRead.lean ====
/-
  Stacking two arrays of 4096 rows along the rows, read at an entry: row `j` of the stack is row `j` of the first
  array when `j < 4096` and row `j - 4096` of the second otherwise — `Cert.Contrast.stacked`.
-/
import proofs.«101757_j26104811225348_1_alg».proof.Proof.Spec
import Idealize.ShloMosaic.Lib.Pipeline.Value

noncomputable section

namespace Cert.Contrast

open Idealize.ShloMosaic Idealize.ShloMosaic.ValueIdx

/-- The concatenation of `z1` and `z2` along axis 0, at row `j` and column `k`, is the stacked array there. -/
theorem concatenate_eq_stacked (z1 z2 : Half)
    (h : Shape.Concatenates [(⟨2, ![4096, 128]⟩ : Shape), (⟨2, ![4096, 128]⟩ : Shape)] (⟨2, ![8192, 128]⟩ : Shape) 0)
    (j : Fin 8192) (k : Fin 128) :
    concatenate (⟨2, ![8192, 128]⟩ : Shape) 0 [⟨(⟨2, ![4096, 128]⟩ : Shape), z1⟩, ⟨(⟨2, ![4096, 128]⟩ : Shape), z2⟩] h (ix2 j k)
      = stacked z1 z2 j k := by
  unfold stacked
  by_cases hj : j.val < 4096
  · rw [dif_pos hj]
    refine concatenate_pair_apply_left (0 : Fin 2) z1 z2 h (ix2 j k) rfl (ix2 (⟨j.val, hj⟩ : Fin 4096) k) ?_
    intro b
    match b with
    | ⟨0, _⟩ => rfl
    | ⟨1, _⟩ => rfl
  · rw [dif_neg hj]
    refine concatenate_pair_apply_right (0 : Fin 2) z1 z2 h (ix2 j k) rfl rfl
      (ix2 (⟨j.val - 4096, by have := j.isLt; omega⟩ : Fin 4096) k) ?_ ?_
    · intro b hb
      match b with
      | ⟨0, _⟩ => exact absurd rfl hb
      | ⟨1, _⟩ => rfl
    · show (j.val - 4096) + 4096 = j.val
      omega

end Cert.Contrast

end
-- ==== Proof.KernelIdealValue.lean ====
/-
  What the idealized kernel's program returns, as a number.

  The launch finds in the array both input windows read the two arguments stacked (the change of format is the
  identity on extended reals). Point `t`'s write-back puts rows `256 t … 256 t + 255` of the results' array at
  those rows' losses, so after the 32 points the array holds every row's loss; the four operations after the
  launch sum the 8192 losses from zero and divide by 8192: the mean loss with the scores multiplied by the inverse
  temperature and the row loss spelt as log-sum-exp.
-/
import proofs.«101757_j26104811225348_1_alg».proof.Proof.KernelIdealRun
import proofs.«101757_j26104811225348_1_alg».proof.Proof.BlocksToArray
import proofs.«101757_j26104811225348_1_alg».proof.Proof.StackedRead
import Idealize.ShloMosaic.Lib.StableHlo.Run
import Idealize.ShloMosaic.PureOps.Ideal.Laws

set_option maxRecDepth 16384

noncomputable section

open scoped BigOperators

namespace Cert.KernelIdeal.Result

open Cert.KernelIdeal Cert.KernelIdeal.Gen Cert.KernelIdeal.Body Cert.KernelIdeal.Whole
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-- The array the launch's input windows read holds the two arguments stacked. -/
theorem entered (c : Dev nD) (j : Fin 8192) (k : Fin 128) :
    (V1 m ρ c main_v1 : S8192x128.Idx → EReal) (ix2 j k)
      = Cert.Contrast.stacked (m ((c : Thread nD τ).loc main_arg0)) (m ((c : Thread nD τ).loc main_arg1)) j k := by
  have e : (V1 m ρ c main_v1 : S8192x128.Idx → EReal)
      = ((truncf .bf16 (concatenate S8192x128 0 [⟨S4096x128, (m ((c : Thread nD τ).loc main_arg0) : S4096x128.Idx → EReal)⟩,
            ⟨S4096x128, (m ((c : Thread nD τ).loc main_arg1) : S4096x128.Idx → EReal)⟩]
          concatenates_S4096x128_S4096x128_S8192x128_d0) bitsLt_bf16_f32 : FVec Ideal S8192x128 .bf16) : S8192x128.Idx → EReal) := by
    show StableHlo.after hostOps0 _ (Proc.devRef .tc main_v1) = _
    after_results <;> rfl
  rw [e]
  exact Cert.Contrast.concatenate_eq_stacked _ _ concatenates_S4096x128_S4096x128_S8192x128_d0 j k

/-- When the launch returns, the results' array holds every row's loss. -/
theorem out_array (c : Dev nD) :
    (W2 m ρ c (Proc.devRef .tc main_v2) : S8192x1.Idx → EReal)
      = BlocksToArray.lossArray (Cert.Contrast.stacked (m ((c : Thread nD τ).loc main_arg0)) (m ((c : Thread nD τ).loc main_arg1))) :=
  (W2_out m ρ c).trans (BlocksToArray.final_out (V1 m ρ) c _ (entered m ρ c))

/-- The program's result: the mean loss. -/
theorem result (c : Dev nD) :
    (W3 m ρ c (Proc.devRef .tc main_v4) : S_.Idx → EReal)
      = fun _ => Cert.Contrast.meanLossMul (m ((c : Thread nD τ).loc main_arg0)) (m ((c : Thread nD τ).loc main_arg1)) := by
  have e : (W3 m ρ c (Proc.devRef .tc main_v4) : S_.Idx → EReal)
      = Host.divf (Host.reduceAdd (W2 m ρ c (Proc.devRef .tc main_v2) : S8192x1.Idx → EReal) (constant (F := Ideal) S_ .f32 0x00000000#32)
          reducesTo_S8192x1_S_d0_1 h_S_) (constant (F := Ideal) S_ .f32 0x46000000#32) := by
    show StableHlo.after hostOps1 _ (Proc.devRef .tc main_v4) = _
    after_results <;> rfl
  rw [e, out_array]
  funext i
  show Ideal.div (Ideal.hostReduceAdd reducesTo_S8192x1_S_d0_1 _ (Ideal.ofBits .f32 0x00000000#32) i) (Ideal.ofBits .f32 0x46000000#32) = _
  rw [Ideal.hostReduceAdd_total _ (fun b => b.elim0)]
  unfold Cert.Contrast.meanLossMul Cert.Contrast.mean
  refine congrArg (fun s => Ideal.div (Ideal.ofBits .f32 0x00000000#32 + s) (Ideal.ofBits .f32 0x46000000#32)) ?_
  rw [sum_idx2]
  refine Finset.sum_congr rfl fun a _ => ?_
  rw [Fin.sum_univ_one]
  rfl

/-- Every weakly fair execution of the idealized kernel's program terminates with its result at the mean loss and
    its two arguments as launched. -/
theorem run_result : θ_run defs (onTc (τ := τ) (main (F := Ideal))) ⟨m, fun _ => 0, ρ⟩ (fun r => ∀ c : Dev nD,
      r.2.mem ((c.tc : Thread nD τ).loc main_v4)
          = (fun _ => Cert.Contrast.meanLossMul (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_v4 (by decide))).trans (result m ρ c),
     (h c _ (mem_uc main_arg0 (by decide))).trans (W3_main_arg0 m ρ c),
     (h c _ (mem_uc main_arg1 (by decide))).trans (W3_main_arg1 m ρ c)⟩) (Whole.run m ρ)

end Cert.KernelIdeal.Result

end
-- ==== Proof.RefRun.lean ====
/-
  The reference program's run, read back as one value.

  @main is a straight line of 60 host operations: the two functions it calls (the diagonal fill and the
  log-softmax) are written out in place, each of their operations over the buffers its call names. Every
  operation writes one buffer from the whole contents of its operand buffers through a pure function, so the
  contents of every buffer after the line is the fold of those functions over the launch contents. Here each
  operation of the list is spelt directly at its buffers, with its function stated at the buffers' literal
  types, so that the fold is a plain composition of the functions.

  The result: every weakly fair execution terminates with the result buffer holding the composition of the 60
  functions applied to the two argument arrays (the same composition, one stage per operation, that the
  index-by-index reading of the program is stated over), and with the argument buffers unchanged.
-/
import proofs.«101757_j26104811225348_1_alg».proof.Proof.Gen.ReferenceIdeal
import proofs.«101757_j26104811225348_1_alg».proof.Proof.ReadP
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 60 operations, in order; a called function's operations stand in its call's place, each at the
    buffers the call names. -/
abbrev ops : List (HloOp τ sig (Elt F)) :=
  [ binary main_arg0 main_arg1 main_v0 ((fun a b => concatenate S8192x128 0 [⟨S4096x128, a⟩, ⟨S4096x128, b⟩] concatenates_S4096x128_S4096x128_S8192x128_d0) : (⟨S4096x128, .f32⟩ : BufTy).Contents (Elt F) → (⟨S4096x128, .f32⟩ : BufTy).Contents (Elt F) → (⟨S8192x128, .f32⟩ : BufTy).Contents (Elt F)),
    unary main_v0 main_v1 ((transpose S128x8192 [1, 0] · transposes_S8192x128_S128x8192_1_0) : (⟨S8192x128, .f32⟩ : BufTy).Contents (Elt F) → (⟨S128x8192, .f32⟩ : BufTy).Contents (Elt F)),
    binary main_v0 main_v1 main_v2 ((fun l r => Host.dotGeneral dot_S8192x128_S128x8192_S8192x8192_1_0_0_1_n_n none l r) : (⟨S8192x128, .f32⟩ : BufTy).Contents (Elt F) → (⟨S128x8192, .f32⟩ : BufTy).Contents (Elt F) → (⟨S8192x8192, .f32⟩ : BufTy).Contents (Elt F)),
    nullary main_cst (constant S_ .f32 0x3E4CCCCD#32),
    unary main_cst main_v3 (broadcastInDim S8192x8192 ![] bcast_S_S8192x8192 : (⟨S_, .f32⟩ : BufTy).Contents (Elt F) → (⟨S8192x8192, .f32⟩ : BufTy).Contents (Elt F)),
    binary main_v2 main_v3 main_v4 (Host.divf : (⟨S8192x8192, .f32⟩ : BufTy).Contents (Elt F) → (⟨S8192x8192, .f32⟩ : BufTy).Contents (Elt F) → (⟨S8192x8192, .f32⟩ : BufTy).Contents (Elt F)),
    nullary main_v5 (iotaInDim S8192x8192 32 0),
    nullary main_v6 (iotaInDim S8192x8192 32 1),
    nullary main_c (constantI S_ 32 0#32),
    unary main_c main_v7 (broadcastInDim S8192x8192 ![] bcast_S_S8192x8192 : (⟨S_, .i32⟩ : BufTy).Contents (Elt F) → (⟨S8192x8192, .i32⟩ : BufTy).Contents (Elt F)),
    binary main_v5 main_v7 main_v8 (addi : (⟨S8192x8192, .i32⟩ : BufTy).Contents (Elt F) → (⟨S8192x8192, .i32⟩ : BufTy).Contents (Elt F) → (⟨S8192x8192, .i32⟩ : BufTy).Contents (Elt F)),
    binary main_v8 main_v6 main_v9 (cmpi .eq : (⟨S8192x8192, .i32⟩ : BufTy).Contents (Elt F) → (⟨S8192x8192, .i32⟩ : BufTy).Contents (Elt F) → (⟨S8192x8192, .i1⟩ : BufTy).Contents (Elt F)),
    nullary main_cst_0 (constant S_ .f32 0xFF7FFFFF#32),
    unary main_cst_0 main_call0_v0 ((broadcastInDim S8192x8192 ![] bcast_S_S8192x8192) : (⟨S_, .f32⟩ : BufTy).Contents (Elt F) → (⟨S8192x8192, .f32⟩ : BufTy).Contents (Elt F)),
    ternary main_v9 main_call0_v0 main_v4 main_v10 (select : (⟨S8192x8192, .i1⟩ : BufTy).Contents (Elt F) → (⟨S8192x8192, .f32⟩ : BufTy).Contents (Elt F) → (⟨S8192x8192, .f32⟩ : BufTy).Contents (Elt F) → (⟨S8192x8192, .f32⟩ : BufTy).Contents (Elt F)),
    nullary main_v11 (iotaInDim S4096 32 0),
    nullary main_c_1 (constantI S_ 32 4096#32),
    unary main_c_1 main_v12 (broadcastInDim S4096 ![] bcast_S_S4096 : (⟨S_, .i32⟩ : BufTy).Contents (Elt F) → (⟨S4096, .i32⟩ : BufTy).Contents (Elt F)),
    binary main_v12 main_v11 main_v13 (addi : (⟨S4096, .i32⟩ : BufTy).Contents (Elt F) → (⟨S4096, .i32⟩ : BufTy).Contents (Elt F) → (⟨S4096, .i32⟩ : BufTy).Contents (Elt F)),
    nullary main_v14 (iotaInDim S4096 32 0),
    binary main_v13 main_v14 main_v15 ((fun a b => concatenate S8192 0 [⟨S4096, a⟩, ⟨S4096, b⟩] concatenates_S4096_S4096_S8192_d0) : (⟨S4096, .i32⟩ : BufTy).Contents (Elt F) → (⟨S4096, .i32⟩ : BufTy).Contents (Elt F) → (⟨S8192, .i32⟩ : BufTy).Contents (Elt F)),
    nullary main_call1_cst (constant S_ .f32 0xFF800000#32),
    binary main_v10 main_call1_cst main_call1_v0 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_call1_cst_0 (constant S_ .f32 0xFF800000#32),
    unary main_call1_cst_0 main_call1_v1 ((broadcastInDim S8192 ![] bcast_S_S8192) : (⟨S_, .f32⟩ : BufTy).Contents (Elt F) → (⟨S8192, .f32⟩ : BufTy).Contents (Elt F)),
    binary main_call1_v1 main_call1_v0 main_call1_v2 (maximumf : (⟨S8192, .f32⟩ : BufTy).Contents (Elt F) → (⟨S8192, .f32⟩ : BufTy).Contents (Elt F) → (⟨S8192, .f32⟩ : BufTy).Contents (Elt F)),
    unary main_call1_v2 main_call1_v3 ((broadcastInDim S8192x1 ![0] bcast_S8192_S8192x1_0) : (⟨S8192, .f32⟩ : BufTy).Contents (Elt F) → (⟨S8192x1, .f32⟩ : BufTy).Contents (Elt F)),
    unary main_call1_v3 main_call1_v4 ((broadcastInDim S8192x8192 ![0, 1] bcast_S8192x1_S8192x8192_0_1) : (⟨S8192x1, .f32⟩ : BufTy).Contents (Elt F) → (⟨S8192x8192, .f32⟩ : BufTy).Contents (Elt F)),
    binary main_v10 main_call1_v4 main_call1_v5 (subf : (⟨S8192x8192, .f32⟩ : BufTy).Contents (Elt F) → (⟨S8192x8192, .f32⟩ : BufTy).Contents (Elt F) → (⟨S8192x8192, .f32⟩ : BufTy).Contents (Elt F)),
    unary main_call1_v5 main_call1_v6 (Host.exp : (⟨S8192x8192, .f32⟩ : BufTy).Contents (Elt F) → (⟨S8192x8192, .f32⟩ : BufTy).Contents (Elt F)),
    nullary main_call1_cst_1 (constant S_ .f32 0x00000000#32),
    binary main_call1_v6 main_call1_cst_1 main_call1_v7 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    unary main_call1_v7 main_call1_v8 ((broadcastInDim S8192x1 ![0] bcast_S8192_S8192x1_0) : (⟨S8192, .f32⟩ : BufTy).Contents (Elt F) → (⟨S8192x1, .f32⟩ : BufTy).Contents (Elt F)),
    unary main_call1_v8 main_call1_v9 (Host.log : (⟨S8192x1, .f32⟩ : BufTy).Contents (Elt F) → (⟨S8192x1, .f32⟩ : BufTy).Contents (Elt F)),
    unary main_call1_v9 main_call1_v10 ((broadcastInDim S8192x8192 ![0, 1] bcast_S8192x1_S8192x8192_0_1) : (⟨S8192x1, .f32⟩ : BufTy).Contents (Elt F) → (⟨S8192x8192, .f32⟩ : BufTy).Contents (Elt F)),
    binary main_call1_v5 main_call1_v10 main_v16 (subf : (⟨S8192x8192, .f32⟩ : BufTy).Contents (Elt F) → (⟨S8192x8192, .f32⟩ : BufTy).Contents (Elt F) → (⟨S8192x8192, .f32⟩ : BufTy).Contents (Elt F)),
    nullary main_v17 (iotaInDim S8192 32 0),
    nullary main_c_2 (constantI S_ 32 0#32),
    unary main_c_2 main_v18 (broadcastInDim S8192 ![] bcast_S_S8192 : (⟨S_, .i32⟩ : BufTy).Contents (Elt F) → (⟨S8192, .i32⟩ : BufTy).Contents (Elt F)),
    binary main_v17 main_v18 main_v19 (cmpi .slt : (⟨S8192, .i32⟩ : BufTy).Contents (Elt F) → (⟨S8192, .i32⟩ : BufTy).Contents (Elt F) → (⟨S8192, .i1⟩ : BufTy).Contents (Elt F)),
    nullary main_c_3 (constantI S_ 32 8192#32),
    unary main_c_3 main_v20 (broadcastInDim S8192 ![] bcast_S_S8192 : (⟨S_, .i32⟩ : BufTy).Contents (Elt F) → (⟨S8192, .i32⟩ : BufTy).Contents (Elt F)),
    binary main_v17 main_v20 main_v21 (addi : (⟨S8192, .i32⟩ : BufTy).Contents (Elt F) → (⟨S8192, .i32⟩ : BufTy).Contents (Elt F) → (⟨S8192, .i32⟩ : BufTy).Contents (Elt F)),
    ternary main_v19 main_v21 main_v17 main_v22 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    nullary main_c_4 (constantI S_ 32 0#32),
    unary main_c_4 main_v23 (broadcastInDim S8192 ![] bcast_S_S8192 : (⟨S_, .i32⟩ : BufTy).Contents (Elt F) → (⟨S8192, .i32⟩ : BufTy).Contents (Elt F)),
    binary main_v15 main_v23 main_v24 (cmpi .slt : (⟨S8192, .i32⟩ : BufTy).Contents (Elt F) → (⟨S8192, .i32⟩ : BufTy).Contents (Elt F) → (⟨S8192, .i1⟩ : BufTy).Contents (Elt F)),
    nullary main_c_5 (constantI S_ 32 8192#32),
    unary main_c_5 main_v25 (broadcastInDim S8192 ![] bcast_S_S8192 : (⟨S_, .i32⟩ : BufTy).Contents (Elt F) → (⟨S8192, .i32⟩ : BufTy).Contents (Elt F)),
    binary main_v15 main_v25 main_v26 (addi : (⟨S8192, .i32⟩ : BufTy).Contents (Elt F) → (⟨S8192, .i32⟩ : BufTy).Contents (Elt F) → (⟨S8192, .i32⟩ : BufTy).Contents (Elt F)),
    ternary main_v24 main_v26 main_v15 main_v27 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v22 main_v28 (broadcastInDim S8192x1 ![0] bcast_S8192_S8192x1_0 : (⟨S8192, .i32⟩ : BufTy).Contents (Elt F) → (⟨S8192x1, .i32⟩ : BufTy).Contents (Elt F)),
    unary main_v27 main_v29 (broadcastInDim S8192x1 ![0] bcast_S8192_S8192x1_0 : (⟨S8192, .i32⟩ : BufTy).Contents (Elt F) → (⟨S8192x1, .i32⟩ : BufTy).Contents (Elt F)),
    binary main_v28 main_v29 main_v30 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)),
    binary main_v16 main_v30 main_v31 ((fun x i => Host.gather gather_S8192x8192_S8192x2_S8192_n_01_n_n_01_1_11 x i) : (⟨S8192x8192, .f32⟩ : BufTy).Contents (Elt F) → (⟨S8192x2, .i32⟩ : BufTy).Contents (Elt F) → (⟨S8192, .f32⟩ : BufTy).Contents (Elt F)),
    unary main_v31 main_v32 (Host.negf : (⟨S8192, .f32⟩ : BufTy).Contents (Elt F) → (⟨S8192, .f32⟩ : BufTy).Contents (Elt F)),
    nullary main_cst_6 (constant S_ .f32 0x00000000#32),
    binary main_v32 main_cst_6 main_v33 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_7 (constant S_ .f32 0x46000000#32),
    binary main_v33 main_cst_7 main_v34 (Host.divf : (⟨S_, .f32⟩ : BufTy).Contents (Elt F) → (⟨S_, .f32⟩ : BufTy).Contents (Elt F) → (⟨S_, .f32⟩ : BufTy).Contents (Elt F)) ]

attribute [local irreducible] Host.reduce Host.gather in
set_option maxRecDepth 8192 in
/-- The program is the list run in order. -/
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
/-- Every operation touches only buffers of the signature. -/
theorem ops_sub : (ops : List (HloOp τ sig (Elt F))).Forall fun op => op.bufs ⊆ tcRefs τ sig :=
  ⟨binary_bufs_sub .., unary_bufs_sub .., binary_bufs_sub .., nullary_bufs_sub .., unary_bufs_sub .., binary_bufs_sub .., nullary_bufs_sub .., nullary_bufs_sub .., nullary_bufs_sub .., unary_bufs_sub .., binary_bufs_sub .., binary_bufs_sub .., nullary_bufs_sub .., unary_bufs_sub .., ternary_bufs_sub .., nullary_bufs_sub .., nullary_bufs_sub .., unary_bufs_sub .., binary_bufs_sub .., nullary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., nullary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., unary_bufs_sub .., nullary_bufs_sub .., binary_bufs_sub .., nullary_bufs_sub .., binary_bufs_sub ..⟩

attribute [local irreducible] Host.reduce Host.gather in
set_option maxRecDepth 8192 in
set_option maxHeartbeats 2000000 in
/-- On every device, for any float values, from any memory with zero counters: every weakly fair execution of
    @main terminates with the result buffer at the composition of the 60 operations' functions applied to the
    two argument arrays, and with the argument buffers unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v34)
          = Cert.ReferenceIdeal.ReadP.val_main_v34 (F := F) (m ((c.tc : Thread nD τ).loc main_arg0))
              (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v34).trans (by after_results_simp; rfl),
      (h c main_arg0).trans (by after_results_simp <;> rfl),
      (h c main_arg1).trans (by after_results_simp <;> rfl)⟩)
    (run_seq scopedRefs_eq scopedSems_eq defs main (fun _ => ops) main_eq (fun _ => ops_sub) m ρ)

end Cert.ReferenceIdeal.RefRun

end
-- ==== Proof.RefValueWords.lean ====
/-
  Facts about 32-bit words that hold small row numbers: a number below 2^31 is read back from its word signed or
  unsigned, two such words are equal only if the numbers are, adding words adds the numbers, a word of a small
  number is never negative, and clamping it into [0, 8191] leaves a number below 8192 unchanged.
-/
import Idealize.ShloMosaic.Lib.Affine
import Idealize.ShloMosaic.Lib.ValueIdx

namespace Cert.ReferenceIdeal.RefValueWords

open Idealize.ShloMosaic Idealize.ShloMosaic.ValueIdx

/-- The word of a number below 2^32 holds that number. -/
theorem toNat_word (n : Nat) (h : n < 4294967296) : (BitVec.ofNat 32 n).toNat = n := by
  rw [BitVec.toNat_ofNat]; exact Nat.mod_eq_of_lt h

/-- Read signed, the word of a number below 2^31 is that number. -/
theorem toInt_word (n : Nat) (h : n < 2147483648) : (BitVec.ofNat 32 n).toInt = (n : Int) := by
  rw [BitVec.toInt_eq_toNat_cond, toNat_word n (by omega)]
  rw [if_pos (by omega)]

/-- Two numbers below 2^32 with the same word are equal. -/
theorem word_inj (a b : Nat) (ha : a < 4294967296) (hb : b < 4294967296)
    (h : BitVec.ofNat 32 a = BitVec.ofNat 32 b) : a = b := by
  have := congrArg BitVec.toNat h
  rwa [toNat_word a ha, toNat_word b hb] at this

/-- Adding two words adds the numbers they hold. -/
theorem addi_word (a b : Nat) : IntOp.addi (BitVec.ofNat 32 a) (BitVec.ofNat 32 b) = BitVec.ofNat 32 (a + b) := by
  unfold IntOp.addi; exact (BitVec.ofNat_add a b).symm

/-- The comparison "row number plus zero equals column number", on words, says the two numbers are equal. -/
theorem diag_word (i j : Fin 8192) :
    IntOp.cmpi .eq (IntOp.addi (BitVec.ofNat 32 i.val) 0#32) (BitVec.ofNat 32 j.val) = if i = j then 1#1 else 0#1 := by
  have h0 : IntOp.addi (BitVec.ofNat 32 i.val) 0#32 = BitVec.ofNat 32 i.val := by unfold IntOp.addi; exact BitVec.add_zero _
  rw [h0]
  by_cases h : i = j
  · rw [if_pos h, h]; exact IntOp.cmpi_eq.2 rfl
  · rw [if_neg h]
    refine eq_zero_of_ne_one fun hc => h (Fin.ext ?_)
    exact word_inj _ _ (by have := i.isLt; omega) (by have := j.isLt; omega) (IntOp.cmpi_eq.1 hc)

/-- The word of a number below 2^31 is not negative. -/
theorem slt_zero_word (n : Nat) (h : n < 2147483648) : IntOp.cmpi .slt (BitVec.ofNat 32 n) 0#32 = 0#1 := by
  refine eq_zero_of_ne_one fun hc => ?_
  have := IntOp.cmpi_slt.1 hc
  rw [toInt_word n h] at this
  have h0 : (0#32 : BitVec 32).toInt = 0 := by decide
  rw [h0] at this; omega

/-- Wrapping a negative index around (adding the extent when the word is negative) leaves the word of a small
    number alone. -/
theorem wrap_word (n : Nat) (h : n < 2147483648) (e : BitVec 32) :
    Scalar.select (IntOp.cmpi .slt (BitVec.ofNat 32 n) 0#32) (IntOp.addi (BitVec.ofNat 32 n) e) (BitVec.ofNat 32 n)
      = BitVec.ofNat 32 n := by
  rw [slt_zero_word n h]; exact select_zero _ _

/-- Read signed and clamped into [0, 8191], the word of a number below 8192 is that number. -/
theorem clamp_word (n : Nat) (h : n < 8192) : min (BitVec.ofNat 32 n).toInt.toNat (8192 - 1) = n := by
  rw [toInt_word n (by omega)]
  simp only [Int.toNat_natCast]; omega

end Cert.ReferenceIdeal.RefValueWords
-- ==== Proof.RefValueScores.lean ====
/-
  The host program's first stages read index by index: the two arrays stacked, the inner products of the rows, the
  division by the temperature, and the diagonal replaced by the fill. Entry (i, j) of the masked scores is the
  specification's `scoresDiv`.
-/
import proofs.«101757_j26104811225348_1_alg».proof.Proof.ReadP
import proofs.«101757_j26104811225348_1_alg».proof.Proof.Spec
import proofs.«101757_j26104811225348_1_alg».proof.Proof.RefValueWords

noncomputable section

open scoped BigOperators

namespace Cert.ReferenceIdeal.RefValueScores

open Cert.ReferenceIdeal Cert.ReferenceIdeal.Gen Cert.ReferenceIdeal.ReadP Idealize.ShloMosaic Idealize.ShloMosaic.ValueIdx Cert.Contrast

/-- The two arrays joined along the rows, read at row `i` and column `k`: the row of the first array when `i` is
    below 4096, else row `i - 4096` of the second. -/
theorem stacked_apply (z1 z2 : (⟨S4096x128, .f32⟩ : BufTy).Contents (Elt Ideal)) (i : Fin 8192) (k : Fin 128) :
    val_main_v0 (F := Ideal) z1 z2 (ix2 i k) = stacked z1 z2 i k := by
  unfold val_main_v0 stacked
  by_cases h : i.val < 4096
  · rw [dif_pos h]
    exact concatenate_pair_apply_left (0 : Fin S8192x128.rank) z1 z2 concatenates_S4096x128_S4096x128_S8192x128_d0
      (ix2 i k) rfl (ix2 (⟨i.val, h⟩ : Fin 4096) k) (fun b => match b with | ⟨0, _⟩ => rfl | ⟨1, _⟩ => rfl)
  · rw [dif_neg h]
    exact concatenate_pair_apply_right (0 : Fin S8192x128.rank) z1 z2 concatenates_S4096x128_S4096x128_S8192x128_d0
      (ix2 i k) rfl rfl (ix2 (⟨i.val - 4096, by have := i.isLt; omega⟩ : Fin 4096) k)
      (fun b hb => match b, hb with | ⟨0, _⟩, hb => absurd rfl hb | ⟨1, _⟩, _ => rfl)
      (by show i.val - 4096 + 4096 = i.val; omega)

/-- The product of the stacked array with its transpose, at `(i, j)`: the inner product of rows `i` and `j`. -/
theorem inner_apply (z1 z2 : (⟨S4096x128, .f32⟩ : BufTy).Contents (Elt Ideal)) (i j : Fin 8192) :
    val_main_v2 (F := Ideal) z1 z2 (ix2 i j) = Cert.Contrast.inner (stacked z1 z2) i j := by
  rw [val_main_v2_apply]
  unfold Cert.Contrast.inner
  refine Finset.sum_congr rfl fun k _ => ?_
  rw [val_main_v1_apply]
  have e1 : lidx_main_v2 (ix2 i j) k = ix2 i k :=
    funext fun a => Fin.ext (by match a with | ⟨0, _⟩ => rfl | ⟨1, _⟩ => rfl)
  have e2 : idx_main_v1 (ridx_main_v2 (ix2 i j) k) = ix2 j k :=
    funext fun a => Fin.ext (by match a with | ⟨0, _⟩ => rfl | ⟨1, _⟩ => rfl)
  rw [e1, e2, stacked_apply, stacked_apply]

/-- The inner products divided by the temperature. -/
theorem quotient_apply (z1 z2 : (⟨S4096x128, .f32⟩ : BufTy).Contents (Elt Ideal)) (i j : Fin 8192) :
    val_main_v4 (F := Ideal) z1 z2 (ix2 i j) = Ideal.div (Cert.Contrast.inner (stacked z1 z2) i j) temp := by
  rw [val_main_v4_apply, val_main_v3_apply, val_main_cst_apply, inner_apply]
  rfl

/-- The diagonal's mask: the word is `1` exactly where the row number is the column number. -/
theorem mask_apply (i j : Fin 8192) :
    val_main_v9 (F := Ideal) (ix2 i j) = if i = j then 1#1 else 0#1 := by
  rw [val_main_v9_apply, val_main_v8_apply, val_main_v5_apply, val_main_v7_apply, val_main_c_apply, val_main_v6_apply]
  exact RefValueWords.diag_word i j

/-- The masked scores: the fill on the diagonal, the quotient elsewhere. -/
theorem scores_apply (z1 z2 : (⟨S4096x128, .f32⟩ : BufTy).Contents (Elt Ideal)) (i j : Fin 8192) :
    val_main_v10 (F := Ideal) z1 z2 (ix2 i j) = scoresDiv temp (stacked z1 z2) i j := by
  rw [val_main_v10_apply, mask_apply, val_main_call0_v0_apply, val_main_cst_0_apply, quotient_apply]
  unfold scoresDiv
  by_cases h : i = j
  · rw [if_pos h, if_pos h, select_one]; rfl
  · rw [if_neg h, if_neg h, select_zero]

end Cert.ReferenceIdeal.RefValueScores

end
-- ==== Proof.RefValueSoftmax.lean ====
/-
  The log-softmax of the masked scores, read index by index in terms of the masked scores themselves: a row's
  maximum as the fold of `max` from minus infinity, the scores shifted by it, the sum of their exponentials, and
  the shifted score minus the logarithm of that sum.
-/
import proofs.«101757_j26104811225348_1_alg».proof.Proof.ReadP
import proofs.«101757_j26104811225348_1_alg».proof.Proof.Spec

noncomputable section

open scoped BigOperators

namespace Cert.ReferenceIdeal.RefValueSoftmax

open Cert.ReferenceIdeal Cert.ReferenceIdeal.Gen Cert.ReferenceIdeal.ReadP Idealize.ShloMosaic Idealize.ShloMosaic.ValueIdx Cert.Contrast

/-- The word the row maximum starts from is minus infinity. -/
theorem negInf_eq : Ideal.ofBits .f32 0xFF800000#32 = (⊥ : EReal) := by simp [Ideal.ofBits, Ideal.ieee]

/-- The reduction of row `i` of the masked scores by `maximum` from minus infinity is the fold of `max` over
    the row's 8192 entries. -/
theorem rowfold_apply (z1 z2 : (⟨S4096x128, .f32⟩ : BufTy).Contents (Elt Ideal)) (i : Fin 8192) :
    val_main_call1_v0 (F := Ideal) z1 z2 (ix1 i) = rowMax fun j => val_main_v10 (F := Ideal) z1 z2 (ix2 i j) := by
  unfold val_main_call1_v0
  generalize val_main_v10 (F := Ideal) z1 z2 = y
  have hR : S8192x8192.Reduces [1] S8192 := by decide
  rw [Host.reduce_eq_fold_single (FloatOps.maximumf (F := Ideal) (φ := .f32)) y (val_main_call1_cst (F := Ideal))
    reducesTo_S8192x8192_S8192_d1 hR h_S_ (ix1 i), val_main_call1_cst_apply]
  unfold rowMax
  have hl : ∀ k : Fin 8192, hR.lift (ix1 i) k = ix2 i k := fun k =>
    funext fun a => Fin.ext (by match a with | ⟨0, _⟩ => rfl | ⟨1, _⟩ => rfl)
  rw [← negInf_eq]
  exact Finset.fold_congr (fun k _ => congrArg y (hl k))

/-- Taking the maximum with minus infinity once more changes nothing. -/
theorem rowmax_apply (z1 z2 : (⟨S4096x128, .f32⟩ : BufTy).Contents (Elt Ideal)) (i : Fin 8192) :
    val_main_call1_v2 (F := Ideal) z1 z2 (ix1 i) = rowMax fun j => val_main_v10 (F := Ideal) z1 z2 (ix2 i j) := by
  rw [val_main_call1_v2_apply, val_main_call1_v1_apply, val_main_call1_cst_0_apply, rowfold_apply]
  show max (Ideal.ofBits .f32 0xFF800000#32) _ = _
  rw [negInf_eq]
  exact max_eq_right bot_le

/-- The scores shifted by their row's maximum. -/
theorem shifted_apply (z1 z2 : (⟨S4096x128, .f32⟩ : BufTy).Contents (Elt Ideal)) (i j : Fin 8192) :
    val_main_call1_v5 (F := Ideal) z1 z2 (ix2 i j)
      = val_main_v10 (F := Ideal) z1 z2 (ix2 i j) - rowMax fun j' => val_main_v10 (F := Ideal) z1 z2 (ix2 i j') := by
  rw [val_main_call1_v5_apply, val_main_call1_v4_apply, val_main_call1_v3_apply]
  have e : idx_main_call1_v3 (idx_main_call1_v4 (ix2 i j)) = ix1 i :=
    funext fun a => Fin.ext (by match a with | ⟨0, _⟩ => rfl)
  rw [e, rowmax_apply]
  rfl

/-- The sum over row `i` of the exponentials of the shifted scores, started from zero. -/
theorem expsum_apply (z1 z2 : (⟨S4096x128, .f32⟩ : BufTy).Contents (Elt Ideal)) (i : Fin 8192) :
    val_main_call1_v7 (F := Ideal) z1 z2 (ix1 i) = expSum fun j => val_main_v10 (F := Ideal) z1 z2 (ix2 i j) := by
  rw [val_main_call1_v7_apply, val_main_call1_cst_1_apply]
  unfold expSum
  show Ideal.ofBits .f32 0x00000000#32 + _ = _
  rw [Ideal.ofBits_zero_f32, zero_add]
  refine Finset.sum_congr rfl fun k _ => ?_
  have e : idx_main_call1_v7 (ix1 i) k = ix2 i k :=
    funext fun a => Fin.ext (by match a with | ⟨0, _⟩ => rfl | ⟨1, _⟩ => rfl)
  rw [val_main_call1_v6_apply, e, shifted_apply]
  rfl

/-- The log-softmax at `(i, j)`: the shifted score minus the logarithm of the row's sum of exponentials. -/
theorem logp_apply (z1 z2 : (⟨S4096x128, .f32⟩ : BufTy).Contents (Elt Ideal)) (i j : Fin 8192) :
    val_main_v16 (F := Ideal) z1 z2 (ix2 i j)
      = (val_main_v10 (F := Ideal) z1 z2 (ix2 i j) - rowMax fun j' => val_main_v10 (F := Ideal) z1 z2 (ix2 i j'))
        - Ideal.log (expSum fun j' => val_main_v10 (F := Ideal) z1 z2 (ix2 i j')) := by
  rw [val_main_v16_apply, val_main_call1_v10_apply, val_main_call1_v9_apply, val_main_call1_v8_apply]
  have e : idx_main_call1_v8 (idx_main_call1_v10 (ix2 i j)) = ix1 i :=
    funext fun a => Fin.ext (by match a with | ⟨0, _⟩ => rfl)
  rw [e, expsum_apply, shifted_apply]
  rfl

end Cert.ReferenceIdeal.RefValueSoftmax

end
-- ==== Proof.RefValueGather.lean ====
/-
  The gather that picks, in each row of the log-softmax, the entry at the row's partner. Its start indices are
  built from row numbers as 32-bit words: column 0 is the row number, column 1 is the partner's (4096 added for
  the first half, the row number within the second array for the second half); both are below 8192, so neither
  the wrapping of negative indices nor the clamping into the array changes them.
-/
import proofs.«101757_j26104811225348_1_alg».proof.Proof.ReadP
import proofs.«101757_j26104811225348_1_alg».proof.Proof.Spec
import proofs.«101757_j26104811225348_1_alg».proof.Proof.RefValueWords

noncomputable section

open scoped BigOperators

namespace Cert.ReferenceIdeal.RefValueGather

open Cert.ReferenceIdeal Cert.ReferenceIdeal.Gen Cert.ReferenceIdeal.ReadP Idealize.ShloMosaic Idealize.ShloMosaic.ValueIdx Cert.Contrast

/-- The partner's row numbers as words: 4096 plus the row number for the first 4096 rows, the row number itself
    (counted from the start of the second array) for the last 4096. At row `i` this is the word of `partner i`. -/
theorem partnerWord_apply (i : Fin 8192) :
    val_main_v15 (F := Ideal) (ix1 i) = BitVec.ofNat 32 (partner i).val := by
  unfold val_main_v15 partner
  by_cases h : i.val < 4096
  · rw [dif_pos h]
    rw [concatenate_pair_apply_left (0 : Fin S8192.rank) (val_main_v13 (F := Ideal)) (val_main_v14 (F := Ideal))
      concatenates_S4096_S4096_S8192_d0 (ix1 i) rfl (ix1 (⟨i.val, h⟩ : Fin 4096)) (fun b => match b with | ⟨0, _⟩ => rfl)]
    rw [val_main_v13_apply, val_main_v12_apply, val_main_c_1_apply, val_main_v11_apply]
    show IntOp.addi (BitVec.ofNat 32 4096) (BitVec.ofNat 32 i.val) = BitVec.ofNat 32 (i.val + 4096)
    rw [RefValueWords.addi_word, Nat.add_comm]
  · rw [dif_neg h]
    rw [concatenate_pair_apply_right (0 : Fin S8192.rank) (val_main_v13 (F := Ideal)) (val_main_v14 (F := Ideal))
      concatenates_S4096_S4096_S8192_d0 (ix1 i) rfl rfl (ix1 (⟨i.val - 4096, by have := i.isLt; omega⟩ : Fin 4096))
      (fun b hb => match b, hb with | ⟨0, _⟩, hb => absurd rfl hb)
      (by show i.val - 4096 + 4096 = i.val; omega)]
    rw [val_main_v14_apply]

/-- Column 0 of the start indices at row `i`: the word of `i` (it is not negative, so it is not wrapped). -/
theorem start0_apply (i : Fin 8192) :
    val_main_v30 (F := Ideal) (ix2 i (0 : Fin 2)) = BitVec.ofNat 32 i.val := by
  unfold val_main_v30
  rw [concatenate_pair_apply_left (1 : Fin S8192x2.rank) (val_main_v28 (F := Ideal)) (val_main_v29 (F := Ideal))
    concatenates_S8192x1_S8192x1_S8192x2_d1 (ix2 i (0 : Fin 2)) rfl (ix2 i (0 : Fin 1))
    (fun b => match b with | ⟨0, _⟩ => rfl | ⟨1, _⟩ => rfl)]
  rw [val_main_v28_apply]
  have e : idx_main_v28 (ix2 i (0 : Fin 1)) = ix1 i := funext fun a => Fin.ext (by match a with | ⟨0, _⟩ => rfl)
  rw [e, val_main_v22_apply, val_main_v19_apply, val_main_v21_apply, val_main_v17_apply, val_main_v18_apply,
    val_main_c_2_apply]
  exact RefValueWords.wrap_word i.val (by have := i.isLt; omega) _

/-- Column 1 of the start indices at row `i`: the word of `partner i` (not negative either). -/
theorem start1_apply (i : Fin 8192) :
    val_main_v30 (F := Ideal) (ix2 i (1 : Fin 2)) = BitVec.ofNat 32 (partner i).val := by
  unfold val_main_v30
  rw [concatenate_pair_apply_right (1 : Fin S8192x2.rank) (val_main_v28 (F := Ideal)) (val_main_v29 (F := Ideal))
    concatenates_S8192x1_S8192x1_S8192x2_d1 (ix2 i (1 : Fin 2)) rfl rfl (ix2 i (0 : Fin 1))
    (fun b hb => match b, hb with | ⟨0, _⟩, _ => rfl | ⟨1, _⟩, hb => absurd rfl hb)
    (by rfl)]
  rw [val_main_v29_apply]
  have e : idx_main_v29 (ix2 i (0 : Fin 1)) = ix1 i := funext fun a => Fin.ext (by match a with | ⟨0, _⟩ => rfl)
  rw [e, val_main_v27_apply, val_main_v24_apply, val_main_v26_apply, val_main_v23_apply, val_main_c_4_apply,
    partnerWord_apply]
  exact RefValueWords.wrap_word (partner i).val (by have := (partner i).isLt; omega) _

/-- A gather of single elements of a square array, both coordinates taken from a two-column array of start indices:
    the element at row `i` is the operand at the two start indices of row `i`, each read signed and clamped into
    the array. -/
theorem gather_pair_apply {α : Type} (x : S8192x8192.Idx → α) (idx : IVec S8192x2 32) (i p q : Fin 8192)
    (h0 : min (idx (ix2 i (0 : Fin 2))).toInt.toNat (8192 - 1) = p.val)
    (h1 : min (idx (ix2 i (1 : Fin 2))).toInt.toNat (8192 - 1) = q.val) :
    Host.gather gather_S8192x8192_S8192x2_S8192_n_01_n_n_01_1_11 x idx (ix1 i) = x (ix2 p q) := by
  have key0 : gather_S8192x8192_S8192x2_S8192_n_01_n_n_01_1_11.start (ix1 i) idx (0 : Fin S8192x8192.rank) + gather_S8192x8192_S8192x2_S8192_n_01_n_n_01_1_11.batchCoord (ix1 i) (0 : Fin S8192x8192.rank)
      + gather_S8192x8192_S8192x2_S8192_n_01_n_n_01_1_11.offCoord (ix1 i) (0 : Fin S8192x8192.rank) = (ix2 p q (0 : Fin 2)).val := by
    have hm : (0 : Fin S8192x8192.rank) ∈ gather_S8192x8192_S8192x2_S8192_n_01_n_n_01_1_11.startIndexMap := by decide
    have hc : (0 : Fin S8192x8192.rank) ∈ gather_S8192x8192_S8192x2_S8192_n_01_n_n_01_1_11.collapsedSliceDims := by decide
    rw [GatherDims.batchCoord_eq_zero _ _ _ List.not_mem_nil,
      GatherDims.offCoord_eq_zero _ _ _ (fun h => ((GatherDims.mem_sKept _ _).mp h).1 hc)]
    simp only [Nat.add_zero]
    unfold GatherDims.start
    rw [dif_pos hm]
    have hsi : gather_S8192x8192_S8192x2_S8192_n_01_n_n_01_1_11.siIdx (ix1 i) ⟨List.idxOf (0 : Fin S8192x8192.rank) gather_S8192x8192_S8192x2_S8192_n_01_n_n_01_1_11.startIndexMap,
        List.idxOf_lt_length_iff.2 hm⟩ = ix2 i (0 : Fin 2) := by
      funext b; refine Fin.ext ?_
      match b with
      | ⟨0, _⟩ => rfl
      | ⟨1, _⟩ => rfl
    rw [hsi]
    exact h0
  have key1 : gather_S8192x8192_S8192x2_S8192_n_01_n_n_01_1_11.start (ix1 i) idx (1 : Fin S8192x8192.rank) + gather_S8192x8192_S8192x2_S8192_n_01_n_n_01_1_11.batchCoord (ix1 i) (1 : Fin S8192x8192.rank)
      + gather_S8192x8192_S8192x2_S8192_n_01_n_n_01_1_11.offCoord (ix1 i) (1 : Fin S8192x8192.rank) = (ix2 p q (1 : Fin 2)).val := by
    have hm : (1 : Fin S8192x8192.rank) ∈ gather_S8192x8192_S8192x2_S8192_n_01_n_n_01_1_11.startIndexMap := by decide
    have hc : (1 : Fin S8192x8192.rank) ∈ gather_S8192x8192_S8192x2_S8192_n_01_n_n_01_1_11.collapsedSliceDims := by decide
    rw [GatherDims.batchCoord_eq_zero _ _ _ List.not_mem_nil,
      GatherDims.offCoord_eq_zero _ _ _ (fun h => ((GatherDims.mem_sKept _ _).mp h).1 hc)]
    simp only [Nat.add_zero]
    unfold GatherDims.start
    rw [dif_pos hm]
    have hsi : gather_S8192x8192_S8192x2_S8192_n_01_n_n_01_1_11.siIdx (ix1 i) ⟨List.idxOf (1 : Fin S8192x8192.rank) gather_S8192x8192_S8192x2_S8192_n_01_n_n_01_1_11.startIndexMap,
        List.idxOf_lt_length_iff.2 hm⟩ = ix2 i (1 : Fin 2) := by
      funext b; refine Fin.ext ?_
      match b with
      | ⟨0, _⟩ => rfl
      | ⟨1, _⟩ => rfl
    rw [hsi]
    exact h1
  unfold Host.gather
  congr 1
  funext a
  refine Fin.ext ?_
  show gather_S8192x8192_S8192x2_S8192_n_01_n_n_01_1_11.start (ix1 i) idx a + gather_S8192x8192_S8192x2_S8192_n_01_n_n_01_1_11.batchCoord (ix1 i) a + gather_S8192x8192_S8192x2_S8192_n_01_n_n_01_1_11.offCoord (ix1 i) a = _
  match a with
  | ⟨0, _⟩ => exact key0
  | ⟨1, _⟩ => exact key1

/-- The gathered entry of row `i` is the log-softmax at `(i, partner i)`. -/
theorem gather_apply (z1 z2 : (⟨S4096x128, .f32⟩ : BufTy).Contents (Elt Ideal)) (i : Fin 8192) :
    val_main_v31 (F := Ideal) z1 z2 (ix1 i) = val_main_v16 (F := Ideal) z1 z2 (ix2 i (partner i)) := by
  unfold val_main_v31
  generalize val_main_v16 (F := Ideal) z1 z2 = y
  exact gather_pair_apply y (val_main_v30 (F := Ideal)) i i (partner i)
    (by rw [start0_apply]; exact RefValueWords.clamp_word _ i.isLt)
    (by rw [start1_apply]; exact RefValueWords.clamp_word _ (partner i).isLt)

end Cert.ReferenceIdeal.RefValueGather

end
-- ==== Proof.RefValue.lean ====
/-
  The host program's result is the mean row loss spelt as minus the log-softmax at the partner, the scores being
  the inner products divided by the temperature with the diagonal filled: the negated gathered entries are the
  row losses, and the last three operations (the sum from zero, the constant 8192, the division) are the mean.
-/
import proofs.«101757_j26104811225348_1_alg».proof.Proof.ReadP
import proofs.«101757_j26104811225348_1_alg».proof.Proof.Spec
import proofs.«101757_j26104811225348_1_alg».proof.Proof.RefValueScores
import proofs.«101757_j26104811225348_1_alg».proof.Proof.RefValueSoftmax
import proofs.«101757_j26104811225348_1_alg».proof.Proof.RefValueGather

noncomputable section

open scoped BigOperators

namespace Cert.ReferenceIdeal.RefValue

open Cert.ReferenceIdeal Cert.ReferenceIdeal.Gen Cert.ReferenceIdeal.ReadP Idealize.ShloMosaic Idealize.ShloMosaic.ValueIdx Cert.Contrast

/-- The negated gathered entry of row `i` is the row's loss: minus the log-softmax of the row's masked scores at
    the row's partner. -/
theorem loss_apply (z1 z2 : (⟨S4096x128, .f32⟩ : BufTy).Contents (Elt Ideal)) (i : Fin 8192) :
    val_main_v32 (F := Ideal) z1 z2 (ix1 i) = lossLogp (scoresDiv temp (stacked z1 z2) i) (partner i) := by
  rw [val_main_v32_apply, RefValueGather.gather_apply, RefValueSoftmax.logp_apply]
  have hs : (fun j => val_main_v10 (F := Ideal) z1 z2 (ix2 i j)) = scoresDiv temp (stacked z1 z2) i :=
    funext fun j => RefValueScores.scores_apply z1 z2 i j
  rw [hs, RefValueScores.scores_apply]
  rfl

/-- A rank-1 index of extent 8192 is its one coordinate. -/
def rowEquiv : S8192.Idx ≃ Fin 8192 where
  toFun j := j 0
  invFun := ix1
  left_inv j := (eq_ix1 j).symm
  right_inv _ := rfl

/-- The host program's result: the 8192 row losses summed from zero and divided by 8192. -/
theorem result_eq (z1 z2 : (⟨S4096x128, .f32⟩ : BufTy).Contents (Elt Ideal)) :
    Cert.ReferenceIdeal.ReadP.val_main_v34 (F := Ideal) z1 z2 = fun _ => Cert.Contrast.meanLossDiv z1 z2 := by
  funext i0
  rw [val_main_v34_apply, val_main_v33_apply, val_main_cst_6_apply, val_main_cst_7_apply]
  unfold meanLossDiv mean
  have hsum : ∑ j : S8192.Idx, val_main_v32 (F := Ideal) z1 z2 j
      = ∑ i : Fin 8192, lossLogp (scoresDiv temp (stacked z1 z2) i) (partner i) :=
    Fintype.sum_equiv rowEquiv _ _ fun j =>
      (congrArg (val_main_v32 (F := Ideal) z1 z2) (eq_ix1 j)).trans (loss_apply z1 z2 (j 0))
  rw [hsum]
  rfl

end Cert.ReferenceIdeal.RefValue

end
-- ==== Proof.SpecLaws.lean ====
/-
  The two spellings of the mean contrastive loss agree on finite inputs.

  Scaling: the temperature word denotes 13421773 / 2^26, a nonzero real, and dividing any extended real by a
  nonzero real is multiplying by its reciprocal, which here is 67108864 / 13421773. So the multiplied and the
  divided scores are the same function, for every input.

  Row law: take a row of real scores s over a nonempty finite index set. Its maximum M (the fold of max from
  -inf) is a real; every shifted score s_j - M is a real, so every exponential is a positive real and their sum
  S is a positive real; hence log S is the real logarithm. The masked sum over j of [j = t] s_j is s_t. With
  L = log S this leaves the identity (L + M) - s_t = -((s_t - M) - L) between reals.

  Finiteness of the scores: entries real gives inner products real (finite sums of products of reals), the
  scaled scores real, and the diagonal word denotes a real.
-/
import proofs.«101757_j26104811225348_1_alg».proof.Proof.Spec
import Mathlib.Analysis.SpecialFunctions.Log.Basic

noncomputable section

open scoped BigOperators

namespace Cert.Contrast

open Idealize.ShloMosaic Idealize.ShloMosaic.ValueIdx

/-! ## Sums and maxima of reals inside the extended reals -/

/-- A finite sum of reals read as extended reals is the real sum read as an extended real. -/
theorem sum_coe {ι : Type*} (S : Finset ι) (f : ι → ℝ) :
    ∑ j ∈ S, ((f j : ℝ) : EReal) = ((∑ j ∈ S, f j : ℝ) : EReal) := by
  induction S using Finset.cons_induction with
  | empty => simp
  | cons a S ha ih => rw [Finset.sum_cons, Finset.sum_cons, ih, EReal.coe_add]

/-- The fold of `max` from `-∞` over a nonempty finite family of reals is a real. -/
theorem fold_max_coe {ι : Type*} (S : Finset ι) (hS : S.Nonempty) (f : ι → ℝ) :
    ∃ M : ℝ, S.fold max ⊥ (fun j => ((f j : ℝ) : EReal)) = (M : EReal) := by
  induction hS using Finset.Nonempty.cons_induction with
  | singleton a => exact ⟨f a, by rw [Finset.fold_singleton, max_eq_left bot_le]⟩
  | cons a S ha hS ih =>
    obtain ⟨M, hM⟩ := ih
    refine ⟨max (f a) M, ?_⟩
    rw [Finset.fold_cons, hM]
    exact (Monotone.map_max (f := fun x : ℝ => (x : EReal)) (fun _ _ h => EReal.coe_le_coe_iff.2 h)).symm

/-! ## The row law over any nonempty finite index set -/

/-- Log-sum-exp minus the masked pick equals minus the log-softmax, on a row of real scores. -/
theorem row_law {ι : Type*} [Fintype ι] [DecidableEq ι] [Nonempty ι] (s : ι → EReal)
    (hs : ∀ j, ∃ r : ℝ, s j = (r : EReal)) (t : ι) :
    (Ideal.log (∑ j, Ideal.exp (s j - Finset.univ.fold max ⊥ s)) + Finset.univ.fold max ⊥ s)
        - ∑ j, (if j = t then s j else 0)
      = -((s t - Finset.univ.fold max ⊥ s)
          - Ideal.log (∑ j, Ideal.exp (s j - Finset.univ.fold max ⊥ s))) := by
  choose f hf using hs
  obtain rfl : s = fun j => ((f j : ℝ) : EReal) := funext hf
  obtain ⟨M, hM⟩ := fold_max_coe Finset.univ Finset.univ_nonempty f
  rw [hM]
  have hexp : ∀ j, Ideal.exp (((f j : ℝ) : EReal) - (M : EReal)) = ((Real.exp (f j - M) : ℝ) : EReal) := by
    intro j; rw [← EReal.coe_sub, Ideal.exp_coe]
  simp only [hexp]
  rw [sum_coe]
  have hpos : 0 < ∑ j, Real.exp (f j - M) :=
    Finset.sum_pos (fun j _ => Real.exp_pos _) Finset.univ_nonempty
  rw [Ideal.log_coe, if_neg (not_le.mpr hpos), Finset.sum_ite_eq', if_pos (Finset.mem_univ t)]
  rw [← EReal.coe_add, ← EReal.coe_sub, ← EReal.coe_sub, ← EReal.coe_sub, ← EReal.coe_neg]
  congr 1; ring

/-- The row law at the specification's names. -/
theorem lossLse_eq_lossLogp (s : Fin 8192 → EReal) (hs : ∀ j, ∃ r : ℝ, s j = (r : EReal)) (t : Fin 8192) :
    lossLse s t = lossLogp s t := row_law s hs t

/-! ## The two scalings -/

/-- The temperature word denotes the real 13421773 / 2^26. -/
theorem temp_eq : temp = ((13421773 / 67108864 : ℝ) : EReal) := by
  unfold temp
  simp [Ideal.ofBits, Ideal.ieee, -EReal.coe_mul]; norm_num

/-- The diagonal word denotes a real. -/
theorem fill_real : ∃ r : ℝ, fill = (r : EReal) := by
  unfold fill
  simp [Ideal.ofBits, Ideal.ieee, -EReal.coe_mul, -EReal.coe_neg]

/-- Multiplying by the inverse temperature is dividing by the temperature, at every extended real. -/
theorem mul_invTemp_eq_div_temp (x : EReal) : x * invTemp = Ideal.div x temp := by
  rw [temp_eq, Ideal.div_coe (by norm_num)]
  unfold invTemp
  congr 2; norm_num

/-- The multiplied and the divided scores are the same function. -/
theorem scoresMul_eq_scoresDiv (z : Fin 8192 → Fin 128 → EReal) : scoresMul invTemp z = scoresDiv temp z := by
  funext i j
  unfold scoresMul scoresDiv
  split
  · rfl
  · exact mul_invTemp_eq_div_temp _

/-! ## The scores are real when the entries are -/

theorem stacked_real (z1 z2 : Half) (h1 : ∀ i, ∃ r : ℝ, z1 i = (r : EReal))
    (h2 : ∀ i, ∃ r : ℝ, z2 i = (r : EReal)) (i : Fin 8192) (k : Fin 128) :
    ∃ r : ℝ, stacked z1 z2 i k = (r : EReal) := by
  unfold stacked
  split
  · exact h1 _
  · exact h2 _

theorem inner_real (z : Fin 8192 → Fin 128 → EReal) (hz : ∀ i k, ∃ r : ℝ, z i k = (r : EReal))
    (i j : Fin 8192) : ∃ r : ℝ, inner z i j = (r : EReal) := by
  choose f hf using hz
  refine ⟨∑ k, f i k * f j k, ?_⟩
  unfold inner
  rw [← sum_coe]
  refine Finset.sum_congr rfl fun k _ => ?_
  rw [hf, hf, EReal.coe_mul]

theorem scoresDiv_real (z : Fin 8192 → Fin 128 → EReal) (hz : ∀ i k, ∃ r : ℝ, z i k = (r : EReal))
    (i j : Fin 8192) : ∃ r : ℝ, scoresDiv temp z i j = (r : EReal) := by
  unfold scoresDiv
  split
  · exact fill_real
  · obtain ⟨r, hr⟩ := inner_real z hz i j
    rw [hr, temp_eq, Ideal.div_coe (by norm_num), ← EReal.coe_mul]
    exact ⟨_, rfl⟩

/-! ## The result -/

/-- On finite inputs the two spellings of the mean loss agree. -/
theorem meanLossMul_eq_meanLossDiv (z1 z2 : Half)
    (h1 : ∀ i, ∃ r : ℝ, z1 i = (r : EReal)) (h2 : ∀ i, ∃ r : ℝ, z2 i = (r : EReal)) :
    meanLossMul z1 z2 = meanLossDiv z1 z2 := by
  unfold meanLossMul meanLossDiv
  refine congrArg mean (funext fun i => ?_)
  rw [scoresMul_eq_scoresDiv]
  exact lossLse_eq_lossLogp _ (scoresDiv_real _ (stacked_real z1 z2 h1 h2) i) _

end Cert.Contrast

end
-- ==== Proof.FiniteInputs.lean ====
/-
  From the precondition to "every entry is a real".

  The precondition is the conjunction of two tests, one per array: every entry's absolute value is below the
  word that denotes +inf. An extended real x whose absolute value max x (-x) is strictly below +inf is neither
  +inf nor -inf (for both of those the absolute value IS +inf), so it is a real.
-/
import proofs.«101757_j26104811225348_1_alg».proof.Defs
import proofs.«101757_j26104811225348_1_alg».proof.Proof.Gen.Pre_finite_inputs
import Idealize.ShloMosaic.Lib.ReduceAll
import Idealize.ShloMosaic.Lib.ValueIdx
import Idealize.ShloMosaic.PureOps.Ideal.Laws

namespace Cert.Contrast.Finite

open Idealize.ShloMosaic

/-- The shape with no axes has one index. -/
instance : Subsingleton Cert.Pre_finite_inputs.S_.Idx := ⟨fun a b => funext fun d => d.elim0⟩

/-- The word `0x7F800000` denotes +inf. -/
theorem inf_word : Ideal.ofBits .f32 0x7F800000#32 = ⊤ := by simp [Ideal.ofBits, Ideal.ieee]

/-- An extended real whose absolute value is strictly below +inf is a real. -/
theorem real_of_abs_lt_inf (x : EReal)
    (h : Ideal.cmp .olt (max x (-x)) (Ideal.ofBits .f32 0x7F800000#32) = 1#1) : ∃ r : ℝ, x = (r : EReal) := by
  rw [inf_word] at h
  induction x using EReal.rec with
  | bot => simp [Ideal.cmp] at h
  | coe r => exact ⟨r, rfl⟩
  | top => simp [Ideal.cmp] at h

/-- The precondition makes every entry of both arrays a real. -/
theorem entries_real [Cert.Pre_finite_inputs.Facts] (a b : FVec Ideal Cert.Pre_finite_inputs.S4096x128 .f32)
    (h : Cert.Pre_finite_inputs.fn (F := Ideal) a b = (fun _ => 1#1)) :
    (∀ i, ∃ r : ℝ, a i = (r : EReal)) ∧ (∀ i, ∃ r : ℝ, b i = (r : EReal)) := by
  have h0 := congrFun h ValueIdx.ix0
  dsimp only [Cert.Pre_finite_inputs.fn] at h0
  change IntOp.andi _ _ = 1#1 at h0
  obtain ⟨ha, hb⟩ := IntOp.andi_eq_one.1 h0
  constructor
  · intro i
    exact real_of_abs_lt_inf _ (Host.reduce_andi_all _ _ _ _ _ ha i)
  · intro i
    exact real_of_abs_lt_inf _ (Host.reduce_andi_all _ _ _ _ _ hb i)

end Cert.Contrast.Finite
-- ==== Proof.lean ====
/-
  The five claims about the contrastive-loss kernel and its reference.

  Both programs stack two arrays of 4096 rows of 128 numbers, score every row against every row by their inner
  product scaled by the inverse temperature, replace each row's score against itself by the most negative finite
  number, and return the mean over the 8192 rows of minus the log-softmax of the row at its partner (the same row of
  the other array). The kernel scores with a product by a constant that the idealization names `1 / f32(0.2)`, and
  spells the row loss as `log-sum-exp − the partner's score picked out by a masked sum`; the reference divides by
  `f32(0.2)` and spells it `−(shifted score − log of the sum of exponentials)`. On extended reals the two scalings
  are one function, and the two spellings agree wherever the scores are finite, which finite inputs guarantee.

  The frames: each program runs to the end, faults nowhere and leaves its arguments as launched — for the two
  kernel programs from the run of the launch (the two input windows each holding half the share of the array they
  have in common), for the reference from the run of its host operations. The idealization changed one constant,
  whose named value is the certificate's table entry. The two idealized programs' results are the two spellings of
  the mean loss of the same stacked array.
-/
import proofs.«101757_j26104811225348_1_alg».proof.Defs
import proofs.«101757_j26104811225348_1_alg».proof.Proof.Gen.Kernel
import proofs.«101757_j26104811225348_1_alg».proof.Proof.Gen.KernelIdeal
import proofs.«101757_j26104811225348_1_alg».proof.Proof.Gen.ReferenceIdeal
import proofs.«101757_j26104811225348_1_alg».proof.Proof.Gen.Pre_finite_inputs
import proofs.«101757_j26104811225348_1_alg».proof.Proof.KernelRun
import proofs.«101757_j26104811225348_1_alg».proof.Proof.KernelIdealValue
import proofs.«101757_j26104811225348_1_alg».proof.Proof.RefRun
import proofs.«101757_j26104811225348_1_alg».proof.Proof.RefValue
import proofs.«101757_j26104811225348_1_alg».proof.Proof.SpecLaws
import proofs.«101757_j26104811225348_1_alg».proof.Proof.FiniteInputs
import Idealize.ShloMosaic.Adequacy
import Idealize.ShloMosaic.Init

noncomputable section

namespace Cert.Proof

open Idealize.ShloMosaic Idealize.ShloMosaic.TcCoe Idealize.SL.Sem

/-- The kernel's program runs and keeps its arguments. -/
theorem frame_k : Cert.frame_Kernel := fun m ρ _ => Cert.Kernel.Whole.frame m ρ

/-- The idealized kernel's program runs and keeps its arguments. -/
theorem frame_ki : Cert.frame_KernelIdeal := fun m ρ _ => Cert.KernelIdeal.Whole.frame m ρ

/-- The idealized reference runs and keeps its arguments: its run with the result dropped. -/
theorem frame_ri : Cert.frame_ReferenceIdeal := fun m ρ _ =>
  (θ_run Cert.ReferenceIdeal.defs _ _).mono (fun _ h c => (h c).2) (Cert.ReferenceIdeal.RefRun.run m ρ)

/-- The one constant the idealization renamed: the table gives the inverse temperature the value
    `67108864 / 13421773`, and the printed constant is that value on extended reals. -/
theorem preserves : Cert.preserves_Kernel_KernelIdeal :=
  IdealRules.named_const.statement Cert.KernelIdeal.κ "inv_temperature" .f32 0x40A00000#32 ((67108864 / 13421773 : ℝ) : EReal) rfl

/-- From memories agreeing on the two arguments, both idealized programs end at the mean loss of the stacked
    arguments: the kernel's spelling of it, which on finite arguments is the reference's. -/
theorem algebraic : Cert.algebraic_KernelIdeal_ReferenceIdeal := by
  intro m ρ m' ρ' hpre hagree
  refine ⟨fun c => fun _ => Cert.Contrast.meanLossMul (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Result.run_result m ρ, ?_⟩
  refine (θ_run Cert.ReferenceIdeal.defs _ _).mono (fun _ h c => ⟨(h c).1.trans ?_, (h c).2⟩)
    (Cert.ReferenceIdeal.RefRun.run m' ρ')
  rw [Cert.ReferenceIdeal.RefValue.result_eq, (hagree c).1, (hagree c).2]
  have hfin := Cert.Contrast.Finite.entries_real _ _ (hpre c)
  exact funext fun _ => (Cert.Contrast.meanLossMul_eq_meanLossDiv _ _ hfin.1 hfin.2).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
